-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S409600x256 : Shape := ⟨2, ![409600, 256]⟩
abbrev S409600 : Shape := ⟨1, ![409600]⟩
abbrev S40960 : Shape := ⟨1, ![40960]⟩
abbrev S256x256 : Shape := ⟨2, ![256, 256]⟩
abbrev S256 : Shape := ⟨1, ![256]⟩
abbrev S256x47 : Shape := ⟨2, ![256, 47]⟩
abbrev S47 : Shape := ⟨1, ![47]⟩
abbrev S_ : Shape := ⟨0, ![]⟩

class Facts : Prop where
  bcast_S_S409600x256 : S_.BroadcastsInDim S409600x256 (![] : Fin 0 → Fin S409600x256.rank)
  reducesTo_S409600x256_S_d0_1 : S409600x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_
  bcast_S_S409600 : S_.BroadcastsInDim S409600 (![] : Fin 0 → Fin S409600.rank)
  reducesTo_S409600_S_d0 : S409600.ReducesTo [0] S_
  bcast_S_S40960 : S_.BroadcastsInDim S40960 (![] : Fin 0 → Fin S40960.rank)
  reducesTo_S40960_S_d0 : S40960.ReducesTo [0] S_

variable [Facts]

def fn_part2 {F : FTy → Type} [FloatOps F] (main_arg2 : IVec S409600 32) (main_arg4 : IVec S40960 32) (main_v33 : IVec S_ 1) : IVec S_ 1 :=
  let main_c_12 : IVec S_ 32 := constantI S_ 32 0#32
  let main_v34 : IVec S409600 32 := broadcastInDim S409600 ![] bcast_S_S409600 main_c_12
  let main_v35 : IVec S409600 1 := cmpi .sge main_arg2 main_v34
  let main_c_13 : IVec S_ 1 := constantI S_ 1 1#1
  let main_v36 : IVec S_ 1 := (fun x v => Host.reduce IntOp.andi x v reducesTo_S409600_S_d0 h_S_) main_v35 main_c_13
  let main_v37 : IVec S_ 1 := andi main_v33 main_v36
  let main_c_14 : IVec S_ 32 := constantI S_ 32 0#32
  let main_v38 : IVec S40960 32 := broadcastInDim S40960 ![] bcast_S_S40960 main_c_14
  let main_v39 : IVec S40960 1 := cmpi .sge main_arg4 main_v38
  let main_c_15 : IVec S_ 1 := constantI S_ 1 1#1
  let main_v40 : IVec S_ 1 := (fun x v => Host.reduce IntOp.andi x v reducesTo_S40960_S_d0 h_S_) main_v39 main_c_15
  let main_v41 : IVec S_ 1 := andi main_v37 main_v40
  main_v41

def fn_part1 {F : FTy → Type} [FloatOps F] (main_arg2 : IVec S409600 32) (main_arg4 : IVec S40960 32) (main_arg8 : FVec F S256x47 .f32) (main_arg9 : FVec F S256x47 .f32) (main_arg10 : FVec F S47 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x47 .f32 := Host.absf main_arg8
  let main_cst_6 : FVec F S_ .f32 := constant S_ .f32 0x7F800000#32
  let main_v20 : FVec F S256x47 .f32 := broadcastInDim S256x47 ![] bcast_S_S256x47 main_cst_6
  let main_v21 : IVec S256x47 1 := cmpf .olt main_v19 main_v20
  let main_c_7 : IVec S_ 1 := constantI S_ 1 1#1
  let main_v22 : IVec S_ 1 := (fun x v => Host.reduce IntOp.andi x v reducesTo_S256x47_S_d0_1 h_S_) main_v21 main_c_7
  let main_v23 : IVec S_ 1 := andi main_v18 main_v22
  let main_v24 : FVec F S256x47 .f32 := Host.absf main_arg9
  let main_cst_8 : FVec F S_ .f32 := constant S_ .f32 0x7F800000#32
  let main_v25 : FVec F S256x47 .f32 := broadcastInDim S256x47 ![] bcast_S_S256x47 main_cst_8
  let main_v26 : IVec S256x47 1 := cmpf .olt main_v24 main_v25
  let main_c_9 : IVec S_ 1 := constantI S_ 1 1#1
  let main_v27 : IVec S_ 1 := (fun x v => Host.reduce IntOp.andi x v reducesTo_S256x47_S_d0_1 h_S_) main_v26 main_c_9
  let main_v28 : IVec S_ 1 := andi main_v23 main_v27
  let main_v29 : FVec F S47 .f32 := Host.absf main_arg10
  let main_cst_10 : FVec F S_ .f32 := constant S_ .f32 0x7F800000#32
  let main_v30 : FVec F S47 .f32 := broadcastInDim S47 ![] bcast_S_S47 main_cst_10
  let main_v31 : IVec S47 1 := cmpf .olt main_v29 main_v30
  let main_c_11 : IVec S_ 1 := constantI S_ 1 1#1
  let main_v32 : IVec S_ 1 := (fun x v => Host.reduce IntOp.andi x v reducesTo_S47_S_d0 h_S_) main_v31 main_c_11
  let main_v33 : IVec S_ 1 := andi main_v28 main_v32
  fn_part2 (F := F) main_arg2 main_arg4 main_v33

def fn {F : FTy → Type} [FloatOps F] (main_arg0 : FVec F S409600x256 .f32) (main_arg1 : IVec S409600 32) (main_arg2 : IVec S409600 32) (main_arg3 : IVec S40960 32) (main_arg4 : IVec S40960 32) (main_arg5 : FVec F S256x256 .f32) (main_arg6 : FVec F S256x256 .f32) (main_arg7 : FVec F S256 .f32) (main_arg8 : FVec F S256x47 .f32) (main_arg9 : FVec F S256x47 .f32) (main_arg10 : FVec F S47 .f32) : IVec S_ 1 :=
  let main_v0 : FVec F S409600x256 .f32 := Host.absf main_arg0
  let main_cst : FVec F S_ .f32 := constant S_ .f32 0x7F800000#32
  let main_v1 : FVec F S409600x256 .f32 := broadcastInDim S409600x256 ![] bcast_S_S409600x256 main_cst
  let main_v2 : IVec S409600x256 1 := cmpf .olt main_v0 main_v1
  let main_c : IVec S_ 1 := constantI S_ 1 1#1
  let main_v3 : IVec S_ 1 := (fun x v => Host.reduce IntOp.andi x v reducesTo_S409600x256_S_d0_1 h_S_) main_v2 main_c
  let main_v4 : FVec F S256x256 .f32 := Host.absf main_arg5
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg6
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg4 main_arg8 main_arg9 main_arg10 main_v13 main_v16
-- ==== Kernel.lean ====
abbrev S409600x256 : Shape := ⟨2, ![409600, 256]⟩
abbrev S409600 : Shape := ⟨1, ![409600]⟩
abbrev S40960 : Shape := ⟨1, ![40960]⟩
abbrev S256x256 : Shape := ⟨2, ![256, 256]⟩
abbrev S256 : Shape := ⟨1, ![256]⟩
abbrev S256x47 : Shape := ⟨2, ![256, 47]⟩
abbrev S47 : Shape := ⟨1, ![47]⟩
abbrev S40960x256 : Shape := ⟨2, ![40960, 256]⟩
abbrev S_ : Shape := ⟨0, ![]⟩
abbrev S409600x1 : Shape := ⟨2, ![409600, 1]⟩
abbrev S40960x1 : Shape := ⟨2, ![40960, 1]⟩
abbrev S1x256 : Shape := ⟨2, ![1, 256]⟩
abbrev S2048x256 : Shape := ⟨2, ![2048, 256]⟩
abbrev S2048x1 : Shape := ⟨2, ![2048, 1]⟩
abbrev S4096x256 : Shape := ⟨2, ![4096, 256]⟩
abbrev S4096 : Shape := ⟨1, ![4096]⟩
abbrev S4096x1 : Shape := ⟨2, ![4096, 1]⟩
abbrev S1x47 : Shape := ⟨2, ![1, 47]⟩
abbrev S4096x47 : Shape := ⟨2, ![4096, 47]⟩
abbrev S2048x47 : Shape := ⟨2, ![2048, 47]⟩

abbrev nBuf : Space → Nat
  | .hbm => 98
  | .vmem => 22
  | .smem => 0
  | _ => 0

abbrev bufTy : (tb : Table) → Fin (tcTables nBuf tb) → BufTy
  | .hbm, ⟨0, _⟩ => ⟨S409600x256, .f32⟩
  | .hbm, ⟨1, _⟩ => ⟨S409600, .i32⟩
  | .hbm, ⟨2, _⟩ => ⟨S409600, .i32⟩
  | .hbm, ⟨3, _⟩ => ⟨S40960, .i32⟩
  | .hbm, ⟨4, _⟩ => ⟨S40960, .i32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x47, .f32⟩
  | .hbm, ⟨9, _⟩ => ⟨S256x47, .f32⟩
  | .hbm, ⟨10, _⟩ => ⟨S47, .f32⟩
  | .hbm, ⟨11, _⟩ => ⟨S40960x256, .f32⟩
  | .hbm, ⟨12, _⟩ => ⟨S_, .i32⟩
  | .hbm, ⟨13, _⟩ => ⟨S409600, .i32⟩
  | .hbm, ⟨14, _⟩ => ⟨S409600, .i1⟩
  | .hbm, ⟨15, _⟩ => ⟨S_, .i32⟩
  | .hbm, ⟨16, _⟩ => ⟨S409600, .i32⟩
  | .hbm, ⟨17, _⟩ => ⟨S409600, .i32⟩
  | .hbm, ⟨18, _⟩ => ⟨S409600, .i32⟩
  | .hbm, ⟨19, _⟩ => ⟨S409600x1, .i32⟩
  | .hbm, ⟨20, _⟩ => ⟨S409600x256, .f32⟩
  | .hbm, ⟨21, _⟩ => ⟨S_, .f32⟩
  | .hbm, ⟨22, _⟩ => ⟨S40960x256, .f32⟩
  | .hbm, ⟨23, _⟩ => ⟨S_, .i32⟩
  | .hbm, ⟨24, _⟩ => ⟨S409600, .i32⟩
  | .hbm, ⟨25, _⟩ => ⟨S409600, .i1⟩
  | .hbm, ⟨26, _⟩ => ⟨S_, .i32⟩
  | .hbm, ⟨27, _⟩ => ⟨S409600, .i32⟩
  | .hbm, ⟨28, _⟩ => ⟨S409600, .i32⟩
  | .hbm, ⟨29, _⟩ => ⟨S409600, .i32⟩
  | .hbm, ⟨30, _⟩ => ⟨S409600x1, .i32⟩
  | .hbm, ⟨31, _⟩ => ⟨S40960x256, .f32⟩
  | .hbm, ⟨32, _⟩ => ⟨S_, .f32⟩
  | .hbm, ⟨33, _⟩ => ⟨S40960, .f32⟩
  | .hbm, ⟨34, _⟩ => ⟨S_, .f32⟩
  | .hbm, ⟨35, _⟩ => ⟨S409600, .f32⟩
  | .hbm, ⟨36, _⟩ => ⟨S_, .i32⟩
  | .hbm, ⟨37, _⟩ => ⟨S409600, .i32⟩
  | .hbm, ⟨38, _⟩ => ⟨S409600, .i1⟩
  | .hbm, ⟨39, _⟩ => ⟨S_, .i32⟩
  | .hbm, ⟨40, _⟩ => ⟨S409600, .i32⟩
  | .hbm, ⟨41, _⟩ => ⟨S409600, .i32⟩
  | .hbm, ⟨42, _⟩ => ⟨S409600, .i32⟩
  | .hbm, ⟨43, _⟩ => ⟨S409600x1, .i32⟩
  | .hbm, ⟨44, _⟩ => ⟨S40960, .f32⟩
  | .hbm, ⟨45, _⟩ => ⟨S_, .f32⟩
  | .hbm, ⟨46, _⟩ => ⟨S40960, .f32⟩
  | .hbm, ⟨47, _⟩ => ⟨S40960, .f32⟩
  | .hbm, ⟨48, _⟩ => ⟨S_, .f32⟩
  | .hbm, ⟨49, _⟩ => ⟨S40960, .f32⟩
  | .hbm, ⟨50, _⟩ => ⟨S40960, .f32⟩
  | .hbm, ⟨51, _⟩ => ⟨S40960x1, .f32⟩
  | .hbm, ⟨52, _⟩ => ⟨S1x256, .f32⟩
  | .hbm, ⟨53, _⟩ => ⟨S40960x256, .bf16⟩
  | .hbm, ⟨54, _⟩ => ⟨S4096x256, .bf16⟩
  | .hbm, ⟨55, _⟩ => ⟨S_, .i32⟩
  | .hbm, ⟨56, _⟩ => ⟨S40960, .i32⟩
  | .hbm, ⟨57, _⟩ => ⟨S40960, .i1⟩
  | .hbm, ⟨58, _⟩ => ⟨S_, .i32⟩
  | .hbm, ⟨59, _⟩ => ⟨S40960, .i32⟩
  | .hbm, ⟨60, _⟩ => ⟨S40960, .i32⟩
  | .hbm, ⟨61, _⟩ => ⟨S40960, .i32⟩
  | .hbm, ⟨62, _⟩ => ⟨S40960x1, .i32⟩
  | .hbm, ⟨63, _⟩ => ⟨S40960x256, .bf16⟩
  | .hbm, ⟨64, _⟩ => ⟨S_, .f32⟩
  | .hbm, ⟨65, _⟩ => ⟨S4096x256, .f32⟩
  | .hbm, ⟨66, _⟩ => ⟨S40960x256, .f32⟩
  | .hbm, ⟨67, _⟩ => ⟨S_, .i32⟩
  | .hbm, ⟨68, _⟩ => ⟨S40960, .i32⟩
  | .hbm, ⟨69, _⟩ => ⟨S40960, .i1⟩
  | .hbm, ⟨70, _⟩ => ⟨S_, .i32⟩
  | .hbm, ⟨71, _⟩ => ⟨S40960, .i32⟩
  | .hbm, ⟨72, _⟩ => ⟨S40960, .i32⟩
  | .hbm, ⟨73, _⟩ => ⟨S40960, .i32⟩
  | .hbm, ⟨74, _⟩ => ⟨S40960x1, .i32⟩
  | .hbm, ⟨75, _⟩ => ⟨S4096x256, .f32⟩
  | .hbm, ⟨76, _⟩ => ⟨S_, .f32⟩
  | .hbm, ⟨77, _⟩ => ⟨S4096, .f32⟩
  | .hbm, ⟨78, _⟩ => ⟨S_, .f32⟩
  | .hbm, ⟨79, _⟩ => ⟨S40960, .f32⟩
  | .hbm, ⟨80, _⟩ => ⟨S_, .i32⟩
  | .hbm, ⟨81, _⟩ => ⟨S40960, .i32⟩
  | .hbm, ⟨82, _⟩ => ⟨S40960, .i1⟩
  | .hbm, ⟨83, _⟩ => ⟨S_, .i32⟩
  | .hbm, ⟨84, _⟩ => ⟨S40960, .i32⟩
  | .hbm, ⟨85, _⟩ => ⟨S40960, .i32⟩
  | .hbm, ⟨86, _⟩ => ⟨S40960, .i32⟩
  | .hbm, ⟨87, _⟩ => ⟨S40960x1, .i32⟩
  | .hbm, ⟨88, _⟩ => ⟨S4096, .f32⟩
  | .hbm, ⟨89, _⟩ => ⟨S_, .f32⟩
  | .hbm, ⟨90, _⟩ => ⟨S4096, .f32⟩
  | .hbm, ⟨91, _⟩ => ⟨S4096, .f32⟩
  | .hbm, ⟨92, _⟩ => ⟨S_, .f32⟩
  | .hbm, ⟨93, _⟩ => ⟨S4096, .f32⟩
  | .hbm, ⟨94, _⟩ => ⟨S4096, .f32⟩
  | .hbm, ⟨95, _⟩ => ⟨S4096x1, .f32⟩
  | .hbm, ⟨96, _⟩ => ⟨S1x47, .f32⟩
  | .hbm, ⟨97, _⟩ => ⟨S4096x47, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x1, .f32⟩
  | .local _ .vmem, ⟨5, _⟩ => ⟨S2048x1, .f32⟩
  | .local _ .vmem, ⟨6, _⟩ => ⟨S256x256, .f32⟩
  | .local _ .vmem, ⟨7, _⟩ => ⟨S256x256, .f32⟩
  | .local _ .vmem, ⟨8, _⟩ => ⟨S1x256, .f32⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .f32⟩
  | .local _ .vmem, ⟨14, _⟩ => ⟨S2048x256, .f32⟩
  | .local _ .vmem, ⟨15, _⟩ => ⟨S2048x1, .f32⟩
  | .local _ .vmem, ⟨16, _⟩ => ⟨S2048x1, .f32⟩
  | .local _ .vmem, ⟨17, _⟩ => ⟨S256x47, .f32⟩
  | .local _ .vmem, ⟨18, _⟩ => ⟨S256x47, .f32⟩
  | .local _ .vmem, ⟨19, _⟩ => ⟨S1x47, .f32⟩
  | .local _ .vmem, ⟨20, _⟩ => ⟨S2048x47, .f32⟩
  | .local _ .vmem, ⟨21, _⟩ => ⟨S2048x47, .f32⟩
  | _, _ => ⟨S409600x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_c_5 : Ref sig .tc := ⟨.hbm, 36, rfl⟩
abbrev main_v18 : Ref sig .tc := ⟨.hbm, 37, rfl⟩
abbrev main_v19 : Ref sig .tc := ⟨.hbm, 38, rfl⟩
abbrev main_c_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_7 : Ref sig .tc := ⟨.hbm, 45, rfl⟩
abbrev main_v25 : Ref sig .tc := ⟨.hbm, 46, rfl⟩
abbrev main_v26 : Ref sig .tc := ⟨.hbm, 47, rfl⟩
abbrev main_cst_8 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_9 : Ref sig .tc := ⟨.hbm, 55, rfl⟩
abbrev main_v33 : Ref sig .tc := ⟨.hbm, 56, rfl⟩
abbrev main_v34 : Ref sig .tc := ⟨.hbm, 57, rfl⟩
abbrev main_c_10 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_11 : Ref sig .tc := ⟨.hbm, 64, rfl⟩
abbrev main_v40 : Ref sig .tc := ⟨.hbm, 65, rfl⟩
abbrev main_v41 : Ref sig .tc := ⟨.hbm, 66, rfl⟩
abbrev main_c_12 : Ref sig .tc := ⟨.hbm, 67, rfl⟩
abbrev main_v42 : Ref sig .tc := ⟨.hbm, 68, rfl⟩
abbrev main_v43 : Ref sig .tc := ⟨.hbm, 69, rfl⟩
abbrev main_c_13 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_14 : Ref sig .tc := ⟨.hbm, 76, rfl⟩
abbrev main_v49 : Ref sig .tc := ⟨.hbm, 77, rfl⟩
abbrev main_cst_15 : Ref sig .tc := ⟨.hbm, 78, rfl⟩
abbrev main_v50 : Ref sig .tc := ⟨.hbm, 79, rfl⟩
abbrev main_c_16 : Ref sig .tc := ⟨.hbm, 80, rfl⟩
abbrev main_v51 : Ref sig .tc := ⟨.hbm, 81, rfl⟩
abbrev main_v52 : Ref sig .tc := ⟨.hbm, 82, rfl⟩
abbrev main_c_17 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_18 : Ref sig .tc := ⟨.hbm, 89, rfl⟩
abbrev main_v58 : Ref sig .tc := ⟨.hbm, 90, rfl⟩
abbrev main_v59 : Ref sig .tc := ⟨.hbm, 91, rfl⟩
abbrev main_cst_19 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x47 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x47 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x47 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2048x47 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S409600x256_S40960x256_0_0 : S409600x256.Slices ![0, 0] S40960x256
  bcast_S_S409600 : S_.BroadcastsInDim S409600 (![] : Fin 0 → Fin S409600.rank)
  bcast_S409600_S409600x1_0 : S409600.BroadcastsInDim S409600x1 (![0] : Fin 1 → Fin S409600x1.rank)
  bcast_S_S40960x256 : S_.BroadcastsInDim S40960x256 (![] : Fin 0 → Fin S40960x256.rank)
  bcast_S_S40960 : S_.BroadcastsInDim S40960 (![] : Fin 0 → Fin S40960.rank)
  bcast_S40960_S40960x1_0 : S40960.BroadcastsInDim S40960x1 (![0] : Fin 1 → Fin S40960x1.rank)
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x256 : S2048x1.Broadcasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  packedbf16_S2048x256_S2048x256_0_0 : (Rect.unit (s := S2048x256) ![0, 0] S2048x256.size inb_S2048x256_S2048x256_0_0).PackedRows (EltTy.packing .bf16)
  slices_S40960x256_S4096x256_0_0 : S40960x256.Slices ![0, 0] S4096x256
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  shapeCasts_S47_S1x47 : S47.ShapeCasts S1x47
  inb_S256x47_S256x47_0_0 : ∀ a, (![0, 0] : Fin 2 → Nat) a + S256x47.size a ≤ S256x47.size a
  h_S256x47 : 0 < S256x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S2048x47 : S1x47.Broadcasts S2048x47
  inb_S2048x47_S2048x47_0_0 : ∀ a, (![0, 0] : Fin 2 → Nat) a + S2048x47.size a ≤ S2048x47.size a
  h_S2048x47 : 0 < S2048x47.numel
  gather_S409600x256_S409600x1_S409600x256_1_0_n_n_0_1_1256_wf : GatherDims.WF S409600x256 S409600x1 S409600x256 [1] [0] [] [0] [] 1 ![1, 256]
  scatter_S40960x256_S409600x1_S409600x256_1_0_0_1_wf : ScatterDims.WF S40960x256 S409600x1 S409600x256 [1] [0] [0] 1
  scatter_S40960_S409600x1_S409600_n_0_0_1_wf : ScatterDims.WF S40960 S409600x1 S409600 [] [0] [0] 1
  dot_S2048x256_S256x256_S2048x256_1_0_0_1_n_n_wf : DotDims.WF S2048x256 S256x256 S2048x256 [1] [0] [0] [1] [] []
  gather_S40960x256_S40960x1_S40960x256_1_0_n_n_0_1_1256_wf : GatherDims.WF S40960x256 S40960x1 S40960x256 [1] [0] [] [0] [] 1 ![1, 256]
  scatter_S4096x256_S40960x1_S40960x256_1_0_0_1_wf : ScatterDims.WF S4096x256 S40960x1 S40960x256 [1] [0] [0] 1
  scatter_S4096_S40960x1_S40960_n_0_0_1_wf : ScatterDims.WF S4096 S40960x1 S40960 [] [0] [0] 1
  dot_S2048x256_S256x47_S2048x47_1_0_0_1_n_n_wf : DotDims.WF S2048x256 S256x47 S2048x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S40960x256.size a
  hwx0_0 : ∀ i : grid0.Coords, EltTy.bits .f32 = 32 ∨ (Rect.block (s := S40960x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S40960x256.size a
  hwx0_1 : ∀ i : grid0.Coords, EltTy.bits .f32 = 32 ∨ (Rect.block (s := S40960x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S40960x1.size a
  hwx0_2 : ∀ i : grid0.Coords, EltTy.bits .f32 = 32 ∨ (Rect.block (s := S40960x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S40960x256.size a
  hwx0_6 : ∀ i : grid0.Coords, EltTy.bits .bf16 = 32 ∨ (Rect.block (s := S40960x256) S2048x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S4096x256.size a
  hwx1_0 : ∀ i : grid1.Coords, EltTy.bits .bf16 = 32 ∨ (Rect.block (s := S4096x256) S2048x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S4096x256.size a
  hwx1_1 : ∀ i : grid1.Coords, EltTy.bits .f32 = 32 ∨ (Rect.block (s := S4096x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S4096x1.size a
  hwx1_2 : ∀ i : grid1.Coords, EltTy.bits .f32 = 32 ∨ (Rect.block (s := S4096x1) S2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x47.size a ≤ S256x47.size a
  hwx1_3 : ∀ i : grid1.Coords, EltTy.bits .f32 = 32 ∨ (Rect.block (s := S256x47) S256x47.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x47.size a ≤ S256x47.size a
  hwx1_4 : ∀ i : grid1.Coords, EltTy.bits .f32 = 32 ∨ (Rect.block (s := S256x47) S256x47.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x47.size a ≤ S1x47.size a
  hwx1_5 : ∀ i : grid1.Coords, EltTy.bits .f32 = 32 ∨ (Rect.block (s := S1x47) S1x47.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x47.size a ≤ S4096x47.size a
  hwx1_6 : ∀ i : grid1.Coords, EltTy.bits .f32 = 32 ∨ (Rect.block (s := S4096x47) S2048x47.size (cc1_transform_6 i) (hinb1_6 i)).WholeWords (EltTy.packing .f32)

variable [Facts₀]

def gather_S409600x256_S409600x1_S409600x256_1_0_n_n_0_1_1256 : GatherDims S409600x256 S409600x1 S409600x256 where
  offsetDims := [1]
  collapsedSliceDims := [0]
  operandBatchingDims := []
  startIndicesBatchingDims := []
  startIndexMap := [0]
  indexVectorDim := 1
  sliceSizes := ![1, 256]
  wf := gather_S409600x256_S409600x1_S409600x256_1_0_n_n_0_1_1256_wf
def scatter_S40960x256_S409600x1_S409600x256_1_0_0_1 : ScatterDims S40960x256 S409600x1 S409600x256 where
  updateWindowDims := [1]
  insertedWindowDims := [0]
  scatterDimsToOperandDims := [0]
  indexVectorDim := 1
  wf := scatter_S40960x256_S409600x1_S409600x256_1_0_0_1_wf
def scatter_S40960_S409600x1_S409600_n_0_0_1 : ScatterDims S40960 S409600x1 S409600 where
  updateWindowDims := []
  insertedWindowDims := [0]
  scatterDimsToOperandDims := [0]
  indexVectorDim := 1
  wf := scatter_S40960_S409600x1_S409600_n_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def gather_S40960x256_S40960x1_S40960x256_1_0_n_n_0_1_1256 : GatherDims S40960x256 S40960x1 S40960x256 where
  offsetDims := [1]
  collapsedSliceDims := [0]
  operandBatchingDims := []
  startIndicesBatchingDims := []
  startIndexMap := [0]
  indexVectorDim := 1
  sliceSizes := ![1, 256]
  wf := gather_S40960x256_S40960x1_S40960x256_1_0_n_n_0_1_1256_wf
def scatter_S4096x256_S40960x1_S40960x256_1_0_0_1 : ScatterDims S4096x256 S40960x1 S40960x256 where
  updateWindowDims := [1]
  insertedWindowDims := [0]
  scatterDimsToOperandDims := [0]
  indexVectorDim := 1
  wf := scatter_S4096x256_S40960x1_S40960x256_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def dot_S2048x256_S256x47_S2048x47_1_0_0_1_n_n : DotDims S2048x256 S256x47 S2048x47 where
  lhsContracting := [1]
  rhsContracting := [0]
  lhsNonContracting := [0]
  rhsNonContracting := [1]
  lhsBatch := []
  rhsBatch := []
  wf := dot_S2048x256_S256x47_S2048x47_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S2048x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v32) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v62) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x47.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256x47.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v63) S1x47.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v64) S2048x47.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S409600x256 : Shape := ⟨2, ![409600, 256]⟩
abbrev S409600 : Shape := ⟨1, ![409600]⟩
abbrev S40960 : Shape := ⟨1, ![40960]⟩
abbrev S256x256 : Shape := ⟨2, ![256, 256]⟩
abbrev S256 : Shape := ⟨1, ![256]⟩
abbrev S256x47 : Shape := ⟨2, ![256, 47]⟩
abbrev S47 : Shape := ⟨1, ![47]⟩
abbrev S40960x256 : Shape := ⟨2, ![40960, 256]⟩
abbrev S_ : Shape := ⟨0, ![]⟩
abbrev S409600x1 : Shape := ⟨2, ![409600, 1]⟩
abbrev S40960x1 : Shape := ⟨2, ![40960, 1]⟩
abbrev S1x256 : Shape := ⟨2, ![1, 256]⟩
abbrev S4096x256 : Shape := ⟨2, ![4096, 256]⟩
abbrev S4096 : Shape := ⟨1, ![4096]⟩
abbrev S4096x1 : Shape := ⟨2, ![4096, 1]⟩
abbrev S4096x47 : Shape := ⟨2, ![4096, 47]⟩
abbrev S1x47 : Shape := ⟨2, ![1, 47]⟩

abbrev nBuf : Space → Nat
  | .hbm => 78
  | .vmem => 0
  | .smem => 0
  | _ => 0

abbrev bufTy : (tb : Table) → Fin (tcTables nBuf tb) → BufTy
  | .hbm, ⟨0, _⟩ => ⟨S409600x256, .f32⟩
  | .hbm, ⟨1, _⟩ => ⟨S409600, .i32⟩
  | .hbm, ⟨2, _⟩ => ⟨S409600, .i32⟩
  | .hbm, ⟨3, _⟩ => ⟨S40960, .i32⟩
  | .hbm, ⟨4, _⟩ => ⟨S40960, .i32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x47, .f32⟩
  | .hbm, ⟨9, _⟩ => ⟨S256x47, .f32⟩
  | .hbm, ⟨10, _⟩ => ⟨S47, .f32⟩
  | .hbm, ⟨11, _⟩ => ⟨S40960x256, .f32⟩
  | .hbm, ⟨12, _⟩ => ⟨S_, .i32⟩
  | .hbm, ⟨13, _⟩ => ⟨S409600, .i32⟩
  | .hbm, ⟨14, _⟩ => ⟨S409600, .i1⟩
  | .hbm, ⟨15, _⟩ => ⟨S_, .i32⟩
  | .hbm, ⟨16, _⟩ => ⟨S409600, .i32⟩
  | .hbm, ⟨17, _⟩ => ⟨S409600, .i32⟩
  | .hbm, ⟨18, _⟩ => ⟨S409600, .i32⟩
  | .hbm, ⟨19, _⟩ => ⟨S409600x1, .i32⟩
  | .hbm, ⟨20, _⟩ => ⟨S409600x256, .f32⟩
  | .hbm, ⟨21, _⟩ => ⟨S_, .f32⟩
  | .hbm, ⟨22, _⟩ => ⟨S40960x256, .f32⟩
  | .hbm, ⟨23, _⟩ => ⟨S409600x1, .i32⟩
  | .hbm, ⟨24, _⟩ => ⟨S40960x256, .f32⟩
  | .hbm, ⟨25, _⟩ => ⟨S_, .f32⟩
  | .hbm, ⟨26, _⟩ => ⟨S409600, .f32⟩
  | .hbm, ⟨27, _⟩ => ⟨S_, .f32⟩
  | .hbm, ⟨28, _⟩ => ⟨S40960, .f32⟩
  | .hbm, ⟨29, _⟩ => ⟨S409600x1, .i32⟩
  | .hbm, ⟨30, _⟩ => ⟨S40960, .f32⟩
  | .hbm, ⟨31, _⟩ => ⟨S_, .f32⟩
  | .hbm, ⟨32, _⟩ => ⟨S40960, .f32⟩
  | .hbm, ⟨33, _⟩ => ⟨S40960, .f32⟩
  | .hbm, ⟨34, _⟩ => ⟨S40960x1, .f32⟩
  | .hbm, ⟨35, _⟩ => ⟨S40960x256, .f32⟩
  | .hbm, ⟨36, _⟩ => ⟨S40960x256, .f32⟩
  | .hbm, ⟨37, _⟩ => ⟨S40960x256, .f32⟩
  | .hbm, ⟨38, _⟩ => ⟨S40960x256, .f32⟩
  | .hbm, ⟨39, _⟩ => ⟨S40960x256, .f32⟩
  | .hbm, ⟨40, _⟩ => ⟨S1x256, .f32⟩
  | .hbm, ⟨41, _⟩ => ⟨S40960x256, .f32⟩
  | .hbm, ⟨42, _⟩ => ⟨S40960x256, .f32⟩
  | .hbm, ⟨43, _⟩ => ⟨S_, .f32⟩
  | .hbm, ⟨44, _⟩ => ⟨S40960x256, .f32⟩
  | .hbm, ⟨45, _⟩ => ⟨S40960x256, .f32⟩
  | .hbm, ⟨46, _⟩ => ⟨S4096x256, .f32⟩
  | .hbm, ⟨47, _⟩ => ⟨S_, .i32⟩
  | .hbm, ⟨48, _⟩ => ⟨S40960, .i32⟩
  | .hbm, ⟨49, _⟩ => ⟨S40960, .i1⟩
  | .hbm, ⟨50, _⟩ => ⟨S_, .i32⟩
  | .hbm, ⟨51, _⟩ => ⟨S40960, .i32⟩
  | .hbm, ⟨52, _⟩ => ⟨S40960, .i32⟩
  | .hbm, ⟨53, _⟩ => ⟨S40960, .i32⟩
  | .hbm, ⟨54, _⟩ => ⟨S40960x1, .i32⟩
  | .hbm, ⟨55, _⟩ => ⟨S40960x256, .f32⟩
  | .hbm, ⟨56, _⟩ => ⟨S_, .f32⟩
  | .hbm, ⟨57, _⟩ => ⟨S4096x256, .f32⟩
  | .hbm, ⟨58, _⟩ => ⟨S40960x1, .i32⟩
  | .hbm, ⟨59, _⟩ => ⟨S4096x256, .f32⟩
  | .hbm, ⟨60, _⟩ => ⟨S_, .f32⟩
  | .hbm, ⟨61, _⟩ => ⟨S40960, .f32⟩
  | .hbm, ⟨62, _⟩ => ⟨S_, .f32⟩
  | .hbm, ⟨63, _⟩ => ⟨S4096, .f32⟩
  | .hbm, ⟨64, _⟩ => ⟨S40960x1, .i32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S4096x1, .f32⟩
  | .hbm, ⟨70, _⟩ => ⟨S4096x256, .f32⟩
  | .hbm, ⟨71, _⟩ => ⟨S4096x256, .f32⟩
  | .hbm, ⟨72, _⟩ => ⟨S4096x47, .f32⟩
  | .hbm, ⟨73, _⟩ => ⟨S4096x47, .f32⟩
  | .hbm, ⟨74, _⟩ => ⟨S4096x47, .f32⟩
  | .hbm, ⟨75, _⟩ => ⟨S1x47, .f32⟩
  | .hbm, ⟨76, _⟩ => ⟨S4096x47, .f32⟩
  | .hbm, ⟨77, _⟩ => ⟨S4096x47, .f32⟩
  | _, _ => ⟨S409600x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩

abbrev nD : Nat := 1
abbrev τ : Topo := Topo.v7x

variable {F : FTy → Type} [FloatOps F]

class Facts₀ : Prop where
  slices_S409600x256_S40960x256_0_0 : S409600x256.Slices ![0, 0] S40960x256
  bcast_S_S409600 : S_.BroadcastsInDim S409600 (![] : Fin 0 → Fin S409600.rank)
  bcast_S409600_S409600x1_0 : S409600.BroadcastsInDim S409600x1 (![0] : Fin 1 → Fin S409600x1.rank)
  bcast_S_S40960x256 : S_.BroadcastsInDim S40960x256 (![] : Fin 0 → Fin S40960x256.rank)
  bcast_S_S40960 : S_.BroadcastsInDim S40960 (![] : Fin 0 → Fin S40960.rank)
  bcast_S40960_S40960x1_0 : S40960.BroadcastsInDim S40960x1 (![0] : Fin 1 → Fin S40960x1.rank)
  bcast_S40960x1_S40960x256_0_1 : S40960x1.BroadcastsInDim S40960x256 (![0, 1] : Fin 2 → Fin S40960x256.rank)
  bcast_S256_S1x256_1 : S256.BroadcastsInDim S1x256 (![1] : Fin 1 → Fin S1x256.rank)
  bcast_S1x256_S40960x256_0_1 : S1x256.BroadcastsInDim S40960x256 (![0, 1] : Fin 2 → Fin S40960x256.rank)
  slices_S40960x256_S4096x256_0_0 : S40960x256.Slices ![0, 0] S4096x256
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  bcast_S47_S1x47_1 : S47.BroadcastsInDim S1x47 (![1] : Fin 1 → Fin S1x47.rank)
  bcast_S1x47_S4096x47_0_1 : S1x47.BroadcastsInDim S4096x47 (![0, 1] : Fin 2 → Fin S4096x47.rank)
  gather_S409600x256_S409600x1_S409600x256_1_0_n_n_0_1_1256_wf : GatherDims.WF S409600x256 S409600x1 S409600x256 [1] [0] [] [0] [] 1 ![1, 256]
  scatter_S40960x256_S409600x1_S409600x256_1_0_0_1_wf : ScatterDims.WF S40960x256 S409600x1 S409600x256 [1] [0] [0] 1
  scatter_S40960_S409600x1_S409600_n_0_0_1_wf : ScatterDims.WF S40960 S409600x1 S409600 [] [0] [0] 1
  dot_S40960x256_S256x256_S40960x256_1_0_0_1_n_n_wf : DotDims.WF S40960x256 S256x256 S40960x256 [1] [0] [0] [1] [] []
  gather_S40960x256_S40960x1_S40960x256_1_0_n_n_0_1_1256_wf : GatherDims.WF S40960x256 S40960x1 S40960x256 [1] [0] [] [0] [] 1 ![1, 256]
  scatter_S4096x256_S40960x1_S40960x256_1_0_0_1_wf : ScatterDims.WF S4096x256 S40960x1 S40960x256 [1] [0] [0] 1
  scatter_S4096_S40960x1_S40960_n_0_0_1_wf : ScatterDims.WF S4096 S40960x1 S40960 [] [0] [0] 1
  dot_S4096x256_S256x47_S4096x47_1_0_0_1_n_n_wf : DotDims.WF S4096x256 S256x47 S4096x47 [1] [0] [0] [1] [] []

variable [Facts₀]

def gather_S409600x256_S409600x1_S409600x256_1_0_n_n_0_1_1256 : GatherDims S409600x256 S409600x1 S409600x256 where
  offsetDims := [1]
  collapsedSliceDims := [0]
  operandBatchingDims := []
  startIndicesBatchingDims := []
  startIndexMap := [0]
  indexVectorDim := 1
  sliceSizes := ![1, 256]
  wf := gather_S409600x256_S409600x1_S409600x256_1_0_n_n_0_1_1256_wf
def scatter_S40960x256_S409600x1_S409600x256_1_0_0_1 : ScatterDims S40960x256 S409600x1 S409600x256 where
  updateWindowDims := [1]
  insertedWindowDims := [0]
  scatterDimsToOperandDims := [0]
  indexVectorDim := 1
  wf := scatter_S40960x256_S409600x1_S409600x256_1_0_0_1_wf
def scatter_S40960_S409600x1_S409600_n_0_0_1 : ScatterDims S40960 S409600x1 S409600 where
  updateWindowDims := []
  insertedWindowDims := [0]
  scatterDimsToOperandDims := [0]
  indexVectorDim := 1
  wf := scatter_S40960_S409600x1_S409600_n_0_0_1_wf
def dot_S40960x256_S256x256_S40960x256_1_0_0_1_n_n : DotDims S40960x256 S256x256 S40960x256 where
  lhsContracting := [1]
  rhsContracting := [0]
  lhsNonContracting := [0]
  rhsNonContracting := [1]
  lhsBatch := []
  rhsBatch := []
  wf := dot_S40960x256_S256x256_S40960x256_1_0_0_1_n_n_wf
def gather_S40960x256_S40960x1_S40960x256_1_0_n_n_0_1_1256 : GatherDims S40960x256 S40960x1 S40960x256 where
  offsetDims := [1]
  collapsedSliceDims := [0]
  operandBatchingDims := []
  startIndicesBatchingDims := []
  startIndexMap := [0]
  indexVectorDim := 1
  sliceSizes := ![1, 256]
  wf := gather_S40960x256_S40960x1_S40960x256_1_0_n_n_0_1_1256_wf
def scatter_S4096x256_S40960x1_S40960x256_1_0_0_1 : ScatterDims S4096x256 S40960x1 S40960x256 where
  updateWindowDims := [1]
  insertedWindowDims := [0]
  scatterDimsToOperandDims := [0]
  indexVectorDim := 1
  wf := scatter_S4096x256_S40960x1_S40960x256_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def dot_S4096x256_S256x47_S4096x47_1_0_0_1_n_n : DotDims S4096x256 S256x47 S4096x47 where
  lhsContracting := [1]
  rhsContracting := [0]
  lhsNonContracting := [0]
  rhsNonContracting := [1]
  lhsBatch := []
  rhsBatch := []
  wf := dot_S4096x256_S256x47_S4096x47_1_0_0_1_n_n_wf

class Facts : Prop extends Facts₀ where

variable [Facts]
-- ==== Proof.PreDecode.lean ====
/-
  What the precondition says of the two destination-index vectors.  The predicate is a conjunction of "all" tests
  folded by "and"; its last two conjuncts test, entry by entry, that a destination index read as a signed 32-bit
  number is at least zero.  When the whole predicate is one, every entry of both vectors is therefore non-negative.
  For a non-negative index the wrap "if i < 0 then i + N else i" that precedes a scatter is the identity.
-/
import proofs.«121893_j5789615915673_2_alg».proof.Pre_finite_inputs
import Idealize.ShloMosaic.PureOps.Ideal
import Idealize.ShloMosaic.Lib.ReduceAll
import Idealize.ShloMosaic.Lib.DynamicIndex
import Idealize.ShloMosaic.Lib.IdealHost
import Idealize.ShloMosaic.Lib.ValueIdx
import Idealize.ShloMosaic.Lib.ValueLayout

noncomputable section

namespace Cert.PreDecode

open Idealize.ShloMosaic Idealize.ShloMosaic.ValueIdx Cert.Pre_finite_inputs

/-- The wrap of a negative index, "if i < 0 then i + N else i", is the identity on a vector of non-negative indices. -/
theorem wrap_eq {s : Shape} (v : IVec s 32) (hb : (⟨0, ![]⟩ : Shape).BroadcastsInDim s (![] : Fin 0 → Fin s.rank)) (N : BitVec 32)
    (h : ∀ i, 0 ≤ (v i).toInt) :
    select (cmpi .slt v (broadcastInDim s ![] hb (constantI (⟨0, ![]⟩ : Shape) 32 0#32))) (addi v (broadcastInDim s ![] hb (constantI (⟨0, ![]⟩ : Shape) 32 N))) v = v := by
  have hz : broadcastInDim s ![] hb (constantI (⟨0, ![]⟩ : Shape) 32 0#32) = constantI s 32 0#32 := by
    funext i
    rw [broadcastInDim_scalar_apply hb]
    rfl
  rw [hz]
  funext i
  exact select_slt_zero_of_nonneg v _ _ i (h i)

variable [Cert.Pre_finite_inputs.Facts]
open Cert.Pre_finite_inputs.Facts

instance : Subsingleton S_.Idx := ⟨fun a b => funext fun d => d.elim0⟩

/-- An "all" test of "v ≥ 0, signed" that came out one: every entry of v is non-negative. -/
theorem all_sge_zero {s : Shape} {axes : List (Fin s.rank)} (v : IVec s 32) (hb : S_.BroadcastsInDim s (![] : Fin 0 → Fin s.rank))
    (hr : s.ReducesTo axes S_) (hu : 0 < S_.numel)
    (e : Host.reduce IntOp.andi (cmpi .sge v (broadcastInDim s ![] hb (constantI S_ 32 0#32))) (constantI S_ 1 1#1) hr hu ix0 = 1#1)
    (i : s.Idx) : 0 ≤ (v i).toInt := by
  have h1 := Host.reduce_andi_all _ _ hr hu ix0 e i
  have h2 : (0#32 : BitVec 32).toInt ≤ (v i).toInt := IntOp.cmpi_sge.1 h1
  simpa using h2

/-- Under the precondition both destination-index vectors are non-negative everywhere. -/
theorem dst_nonneg (a0 : FVec Ideal S409600x256 .f32) (a1 a2 : IVec S409600 32) (a3 a4 : IVec S40960 32)
    (a5 a6 : FVec Ideal S256x256 .f32) (a7 : FVec Ideal S256 .f32) (a8 a9 : FVec Ideal S256x47 .f32) (a10 : FVec Ideal S47 .f32)
    (h : fn (F := Ideal) a0 a1 a2 a3 a4 a5 a6 a7 a8 a9 a10 = fun _ => 1#1) :
    (∀ i, 0 ≤ (a2 i).toInt) ∧ (∀ i, 0 ≤ (a4 i).toInt) := by
  have h0 := congrFun h ix0
  dsimp only [fn, fn_part1, fn_part2] at h0
  obtain ⟨h1, h4⟩ := IntOp.andi_eq_one.1 h0
  obtain ⟨_, h2⟩ := IntOp.andi_eq_one.1 h1
  exact ⟨all_sge_zero a2 _ _ _ h2, all_sge_zero a4 _ _ _ h4⟩

end Cert.PreDecode

end
-- ==== Proof.KernelRun.lean ====
/-
  The program's run with its result named.  Every weakly fair execution of @main — a stretch of host operations,
  the first layer's region, a second stretch, the second layer's region — terminates without a fault; the state
  it ends in holds, in every buffer that outlives a region, the contents the fold of the four segments leaves
  there.  Read at the result buffer this is the second region's output array after its last write-back; read at
  an argument it is the argument as launched.
-/
import proofs.«121893_j5789615915673_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, every argument as launched. -/
theorem run : θ_run defs (onTc (τ := τ) (main (F := F))) ⟨m, fun _ => 0, ρ⟩ (fun r => ∀ c : Dev nD,
      r.2.mem ((c.tc : Thread nD τ).loc main_v64) = W4 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v64 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.RunValue

end
-- ==== Proof.Spec.lean ====
/-
  One layer of a mean-aggregating graph network, entry by entry, for any extents.  For destination-node features h
  (n rows, k columns), neighbour means M of the same shape, two k×d weight matrices and a bias of length d, entry
  (p, q) of the layer is  (Σ_c h(p,c)·Ws(c,q) + Σ_c M(p,c)·Wn(c,q)) + b(q),  optionally followed by the rectifier
  max(·, 0).  An entry reads row p of h and of M only, so a block of rows computes the same entries as the whole
  array.  The neighbour mean of a row is its neighbour sum divided by max(count, 1); multiplying the sum by the
  reciprocal 1 / max(count, 1) is the same extended real, because the divisor is at least 1 and so not zero.
-/
import Idealize.ShloMosaic.Lib.ValueIdx
import Idealize.ShloMosaic.PureOps.Ideal.Laws

noncomputable section

namespace Cert.Sage

open Idealize.ShloMosaic Idealize.ShloMosaic.ValueIdx
open scoped BigOperators

variable {n n' k d : Nat}

/-- The rectifier max(x, 0), or nothing. The zero is kept as the f32 word both programs print. -/
def act (relu : Bool) (x : EReal) : EReal :=
  if relu then max x (Ideal.ofBits .f32 0x00000000#32) else x

/-- Entry (p, q) of a layer before the rectifier. -/
def entry (h M : (⟨2, ![n, k]⟩ : Shape).Idx → EReal) (Ws Wn : (⟨2, ![k, d]⟩ : Shape).Idx → EReal) (b : Fin d → EReal)
    (p : Fin n) (q : Fin d) : EReal :=
  ((∑ c : Fin k, h (ix2 p c) * Ws (ix2 c q)) + ∑ c : Fin k, M (ix2 p c) * Wn (ix2 c q)) + b q

/-- The layer as one whole-array function. -/
def layer (relu : Bool) (h M : (⟨2, ![n, k]⟩ : Shape).Idx → EReal) (Ws Wn : (⟨2, ![k, d]⟩ : Shape).Idx → EReal)
    (b : Fin d → EReal) : (⟨2, ![n, d]⟩ : Shape).Idx → EReal :=
  fun i => act relu (entry h M Ws Wn b (i 0) (i 1))

/-- Every row of an n×k array times that row's factor, the factors given as an n×1 column. -/
def rowScale (s : (⟨2, ![n, k]⟩ : Shape).Idx → EReal) (w : (⟨2, ![n, 1]⟩ : Shape).Idx → EReal) :
    (⟨2, ![n, k]⟩ : Shape).Idx → EReal :=
  fun j => s j * w (ix2 (j 0) (0 : Fin 1))

theorem rowScale_apply (s : (⟨2, ![n, k]⟩ : Shape).Idx → EReal) (w : (⟨2, ![n, 1]⟩ : Shape).Idx → EReal)
    (p : Fin n) (c : Fin k) : rowScale s w (ix2 p c) = s (ix2 p c) * w (ix2 p (0 : Fin 1)) := rfl

/-- The one row of a 1×d array, as a function of the column. -/
def rowOf (b : (⟨2, ![1, d]⟩ : Shape).Idx → EReal) : Fin d → EReal :=
  fun q => b (ix2 (0 : Fin 1) q)

theorem layer_apply (relu : Bool) (h M : (⟨2, ![n, k]⟩ : Shape).Idx → EReal) (Ws Wn : (⟨2, ![k, d]⟩ : Shape).Idx → EReal)
    (b : Fin d → EReal) (p : Fin n) (q : Fin d) :
    layer relu h M Ws Wn b (ix2 p q) = act relu (entry h M Ws Wn b p q) := rfl

/-- An entry reads row p of the features and of the means: arrays that agree on that row give the same entry
    (a block of rows against the whole array). -/
theorem entry_congr (h M : (⟨2, ![n, k]⟩ : Shape).Idx → EReal) (h' M' : (⟨2, ![n', k]⟩ : Shape).Idx → EReal)
    (Ws Wn : (⟨2, ![k, d]⟩ : Shape).Idx → EReal) (b b' : Fin d → EReal) (p : Fin n) (p' : Fin n') (q : Fin d)
    (eh : ∀ c : Fin k, h' (ix2 p' c) = h (ix2 p c)) (eM : ∀ c : Fin k, M' (ix2 p' c) = M (ix2 p c))
    (eb : b' q = b q) :
    entry h' M' Ws Wn b' p' q = entry h M Ws Wn b p q := by
  unfold entry
  rw [eb]
  congr 1
  congr 1
  · exact Finset.sum_congr rfl fun c _ => by rw [eh c]
  · exact Finset.sum_congr rfl fun c _ => by rw [eM c]

/-- Layers of arrays that agree everywhere agree. -/
theorem layer_congr (relu : Bool) (h h' M M' : (⟨2, ![n, k]⟩ : Shape).Idx → EReal)
    (Ws Wn : (⟨2, ![k, d]⟩ : Shape).Idx → EReal) (b b' : Fin d → EReal)
    (eh : h' = h) (eM : M' = M) (eb : b' = b) :
    layer relu h' M' Ws Wn b' = layer relu h M Ws Wn b := by
  rw [eh, eM, eb]

/-- The f32 word of 1.0 is the real number one. -/
theorem ofBits_one_f32 : Ideal.ofBits .f32 0x3F800000#32 = 1 := by
  simp [Ideal.ofBits, Ideal.ieee]
  rw [← EReal.coe_mul]
  norm_num

/-- A sum times the reciprocal of max(count, 1) is the sum divided by max(count, 1), for every extended-real
    sum and count: the divisor is at least one, so it is not zero, and then a quotient is the product with the
    inverse. -/
theorem mul_recip_eq_div (s c : EReal) :
    s * Ideal.div (Ideal.ofBits .f32 0x3F800000#32) (max c (Ideal.ofBits .f32 0x3F800000#32))
      = Ideal.div s (max c (Ideal.ofBits .f32 0x3F800000#32)) := by
  rw [ofBits_one_f32]
  have hne : max c (1 : EReal) ≠ 0 := by
    have h1 : (0 : EReal) < max c 1 := lt_of_lt_of_le zero_lt_one (le_max_right c 1)
    exact ne_of_gt h1
  unfold Ideal.div
  rw [if_neg hne, if_neg hne, one_mul]

end Cert.Sage

end
-- ==== Proof.RefLayers.lean ====
/-
  The reference's two layers, each as the layer function of its own stages.  The reference spells a layer as two
  whole-array matrix products, their sum, the bias laid out as one row and then along every row, and for the first
  layer a maximum with a splat of zero.  Read at an entry (p, q) a product is the sum over the contracted
  coordinate, the bias is its entry q, and the whole is the layer's entry.
-/
import proofs.«121893_j5789615915673_2_alg».proof.Proof.Gen.ReferenceIdeal.Read
import proofs.«121893_j5789615915673_2_alg».proof.Proof.Spec

noncomputable section

namespace Cert.ReferenceIdeal.Layers

open Cert.ReferenceIdeal Cert.ReferenceIdeal.Gen Cert.ReferenceIdeal.Read Idealize.ShloMosaic Idealize.ShloMosaic.ValueIdx
open scoped BigOperators

/-- The first layer with its rectifier: the features are the first 40960 rows of x, the means the reference's
    quotient of neighbour sums by max(count, 1). -/
theorem layer0 (x0 : (⟨S409600x256, .f32⟩ : BufTy).Contents (Elt Ideal)) (x1 x2 : (⟨S409600, .i32⟩ : BufTy).Contents (Elt Ideal))
    (x5 x6 : (⟨S256x256, .f32⟩ : BufTy).Contents (Elt Ideal)) (x7 : (⟨S256, .f32⟩ : BufTy).Contents (Elt Ideal)) :
    val_main_v26 (F := Ideal) x0 x1 x2 x5 x6 x7
      = Cert.Sage.layer true (val_main_v0 (F := Ideal) x0) (val_main_v19 (F := Ideal) x0 x1 x2) x5 x6 (fun q => x7 (ix1 q)) := by
  funext i
  obtain ⟨p, q, rfl⟩ : ∃ (p : Fin 40960) (q : Fin 256), i = ix2 p q := ⟨i 0, i 1, eq_ix2 i⟩
  have el20 : ∀ k, lidx_main_v20 (ix2 p q) k = ix2 p k := fun k => funext fun a => Fin.ext (by
    match a with | ⟨0, _⟩ => rfl | ⟨1, _⟩ => rfl)
  have er20 : ∀ k, ridx_main_v20 (ix2 p q) k = ix2 k q := fun k => funext fun a => Fin.ext (by
    match a with | ⟨0, _⟩ => rfl | ⟨1, _⟩ => rfl)
  have el21 : ∀ k, lidx_main_v21 (ix2 p q) k = ix2 p k := fun k => funext fun a => Fin.ext (by
    match a with | ⟨0, _⟩ => rfl | ⟨1, _⟩ => rfl)
  have er21 : ∀ k, ridx_main_v21 (ix2 p q) k = ix2 k q := fun k => funext fun a => Fin.ext (by
    match a with | ⟨0, _⟩ => rfl | ⟨1, _⟩ => rfl)
  have eb : idx_main_v23 (idx_main_v24 (ix2 p q)) = ix1 q := funext fun a => Fin.ext (by
    match a with | ⟨0, _⟩ => rfl)
  rw [val_main_v26_apply, val_main_v25_apply, val_main_v22_apply, val_main_v20_apply, val_main_v21_apply,
    val_main_v24_apply, val_main_v23_apply, val_main_call0_v0_apply, val_main_call0_cst_apply, Cert.Sage.layer_apply]
  simp only [el20, er20, el21, er21, eb]
  unfold Cert.Sage.act Cert.Sage.entry
  rw [if_pos rfl]
  rfl

/-- The second layer, without a rectifier: the features are the first 4096 rows of the first layer's output. -/
theorem layer1 (x0 : (⟨S409600x256, .f32⟩ : BufTy).Contents (Elt Ideal)) (x1 x2 : (⟨S409600, .i32⟩ : BufTy).Contents (Elt Ideal))
    (x3 x4 : (⟨S40960, .i32⟩ : BufTy).Contents (Elt Ideal))
    (x5 x6 : (⟨S256x256, .f32⟩ : BufTy).Contents (Elt Ideal)) (x7 : (⟨S256, .f32⟩ : BufTy).Contents (Elt Ideal))
    (x8 x9 : (⟨S256x47, .f32⟩ : BufTy).Contents (Elt Ideal)) (x10 : (⟨S47, .f32⟩ : BufTy).Contents (Elt Ideal)) :
    val_main_v52 (F := Ideal) x0 x1 x2 x3 x4 x5 x6 x7 x8 x9 x10
      = Cert.Sage.layer false (val_main_v27 (F := Ideal) x0 x1 x2 x5 x6 x7) (val_main_v46 (F := Ideal) x0 x1 x2 x3 x4 x5 x6 x7)
          x8 x9 (fun q => x10 (ix1 q)) := by
  funext i
  obtain ⟨p, q, rfl⟩ : ∃ (p : Fin 4096) (q : Fin 47), i = ix2 p q := ⟨i 0, i 1, eq_ix2 i⟩
  have el47 : ∀ k, lidx_main_v47 (ix2 p q) k = ix2 p k := fun k => funext fun a => Fin.ext (by
    match a with | ⟨0, _⟩ => rfl | ⟨1, _⟩ => rfl)
  have er47 : ∀ k, ridx_main_v47 (ix2 p q) k = ix2 k q := fun k => funext fun a => Fin.ext (by
    match a with | ⟨0, _⟩ => rfl | ⟨1, _⟩ => rfl)
  have el48 : ∀ k, lidx_main_v48 (ix2 p q) k = ix2 p k := fun k => funext fun a => Fin.ext (by
    match a with | ⟨0, _⟩ => rfl | ⟨1, _⟩ => rfl)
  have er48 : ∀ k, ridx_main_v48 (ix2 p q) k = ix2 k q := fun k => funext fun a => Fin.ext (by
    match a with | ⟨0, _⟩ => rfl | ⟨1, _⟩ => rfl)
  have eb : idx_main_v50 (idx_main_v51 (ix2 p q)) = ix1 q := funext fun a => Fin.ext (by
    match a with | ⟨0, _⟩ => rfl)
  rw [val_main_v52_apply, val_main_v49_apply, val_main_v47_apply, val_main_v48_apply, val_main_v51_apply,
    val_main_v50_apply, Cert.Sage.layer_apply]
  simp only [el47, er47, el48, er48, eb]
  unfold Cert.Sage.act Cert.Sage.entry
  rw [if_neg (by decide)]
  rfl

end Cert.ReferenceIdeal.Layers

end
-- ==== Proof.LibHostRead.lean ====
/-
  A jnp reference's host operations read at an index, on the extended reals, for any extents.

  The broadcasts a reduction with keepdims or a row / column operand prints: a vector kept as a one-column or one-row
  matrix, a one-column or one-row matrix spread over the other axis, the same with a trailing unit axis of a three-axis
  array; a literal splat to any shape; the host's sum over the last axis of a matrix or of a three-axis array from an
  initial value that is zero, as the plain sum over that axis's coordinates; the host's quotient, square root,
  reciprocal square root and logarithm entry by entry; and a reshape that splits the second axis of a matrix in two:
  entry (r, k, p) of the [a, c, d] array is entry (r, k · d + p) of the [a, c · d] matrix.
-/
import Idealize.ShloMosaic.Lib.ValueIdx
import Idealize.ShloMosaic.Lib.Pipeline.Value
import Idealize.ShloMosaic.PureOps.Ideal.Laws

noncomputable section

namespace Cert.LibHostRead

open Idealize.ShloMosaic Idealize.ShloMosaic.ValueIdx
open scoped BigOperators

/-! ## Host operations read at an index, for any extents -/

section Helpers
variable {α : Type}

/-- A splat of a literal, broadcast to any shape, is the literal's value at every index. -/
theorem bcastConst_apply {s t : Shape} (dims : Fin s.rank → Fin t.rank) (h : s.BroadcastsInDim t dims) (w : BitVec 32)
    (j : t.Idx) : broadcastInDim t dims h (constant (F := Ideal) s .f32 w) j = Ideal.ofBits .f32 w := rfl

/-- A vector kept as a one-column matrix reads, at `(r, z)`, entry `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ (![0] : Fin 1 → Fin 2) h x (ix2 r z) = x (ix1 r) := by
  refine broadcastInDim_apply _ h x (ix2 r z) (ix1 r) fun ax => ?_
  match ax with
  | ⟨0, _⟩ =>
    show r.val = if a = 1 then 0 else r.val
    split
    · have := r.isLt; omega
    · rfl

/-- A one-column matrix spread over `b` columns reads, at `(r, d)`, the column's entry of row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 r (0 : Fin 1)) := by
  refine broadcastInDim_apply _ h x (ix2 r d) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else d.val
    rw [if_pos rfl]

/-- A vector kept as a one-row matrix reads, at `(z, d)`, entry `d`. -/
theorem bcast_b_1b_apply {b : ℕ} (x : (⟨1, ![b]⟩ : Shape).Idx → α)
    (h : (⟨1, ![b]⟩ : Shape).BroadcastsInDim ⟨2, ![1, b]⟩ (![1] : Fin 1 → Fin 2)) (z : Fin 1) (d : Fin b) :
    broadcastInDim ⟨2, ![1, b]⟩ (![1] : Fin 1 → Fin 2) h x (ix2 z d) = x (ix1 d) := by
  refine broadcastInDim_apply _ h x (ix2 z d) (ix1 d) fun ax => ?_
  match ax with
  | ⟨0, _⟩ =>
    show d.val = if b = 1 then 0 else d.val
    split
    · have := d.isLt; omega
    · rfl

/-- A one-row matrix spread over `a` rows reads, at `(r, d)`, the row's entry of column `d`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 (0 : Fin 1) d) := by
  refine broadcastInDim_apply _ h x (ix2 r d) (ix2 (0 : Fin 1) d) fun ax => ?_
  match ax with
  | ⟨0, _⟩ =>
    show (0 : ℕ) = if (1 : ℕ) = 1 then 0 else r.val
    rw [if_pos rfl]
  | ⟨1, _⟩ =>
    show d.val = if b = 1 then 0 else d.val
    split
    · have := d.isLt; omega
    · rfl

/-- A vector spread over the rows of a matrix, through a one-row matrix: at `(r, d)`, entry `d`. -/
theorem bcastRow_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h2 (broadcastInDim ⟨2, ![1, b]⟩ (![1] : Fin 1 → Fin 2) h1 x) (ix2 r d)
      = x (ix1 d) :=
  (bcast_1b_ab_apply _ h2 r d).trans (bcast_b_1b_apply x h1 0 d)

/-- An `[a, b]` array kept as `[a, b, 1]` reads, at `(i, j, z)`, entry `(i, j)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin 3)) (i : Fin a) (j : Fin b) (z : Fin 1) :
    broadcastInDim ⟨3, ![a, b, 1]⟩ (![0, 1] : Fin 2 → Fin 3) h x (ix3 i j z) = x (ix2 i j) := by
  refine broadcastInDim_apply _ h x (ix3 i j z) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array spread over `c` entries of the last axis reads, at `(i, j, k)`, entry `(i, j, 0)`. -/
theorem bcast_ab1_abc_apply {a b c : ℕ} (x : (⟨3, ![a, b, 1]⟩ : Shape).Idx → α)
    (h : (⟨3, ![a, b, 1]⟩ : Shape).BroadcastsInDim ⟨3, ![a, b, c]⟩ (![0, 1, 2] : Fin 3 → Fin 3)) (i : Fin a) (j : Fin b) (k : Fin c) :
    broadcastInDim ⟨3, ![a, b, c]⟩ (![0, 1, 2] : Fin 3 → Fin 3) h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- The host's sum of each row of a matrix, from an initial value that is zero: at row `r`, the sum over the columns. -/
theorem hostSumAxis1_apply {a b : ℕ} (x : (⟨2, ![a, b]⟩ : Shape).Idx → EReal) {u : Shape} (init : u.Idx → EReal)
    (h' : (⟨2, ![a, b]⟩ : Shape).ReducesTo [1] ⟨1, ![a]⟩) (hu : 0 < u.numel)
    (hinit : init (Shape.Idx.first hu) = 0) (r : Fin a) :
    Host.reduceAdd (F := Ideal) (φ := .f32) x init h' hu (ix1 r) = ∑ d : Fin b, x (ix2 r d) := by
  have h : (⟨2, ![a, b]⟩ : Shape).Reduces [1] ⟨1, ![a]⟩ := ⟨h'.1, Nat.one_pos, h'.2⟩
  show Ideal.hostReduceAdd h' x (init (Shape.Idx.first hu)) (ix1 r) = _
  rw [hinit, Ideal.hostReduceAdd_single h' h x 0 (ix1 r), zero_add]
  exact Finset.sum_congr rfl fun k _ => congrArg x (funext fun ax => Fin.ext (match ax with | ⟨0, _⟩ => rfl | ⟨1, _⟩ => rfl))

/-- The host's sum over the last axis of a three-axis array, from zero: at `(i, j)`, the sum over `k` of the entries `(i, j, k)`. -/
theorem hostSumAxis2_apply {a b c : ℕ} (x : (⟨3, ![a, b, c]⟩ : Shape).Idx → EReal) {u : Shape} (init : u.Idx → EReal)
    (h' : (⟨3, ![a, b, c]⟩ : Shape).ReducesTo [2] ⟨2, ![a, b]⟩) (hu : 0 < u.numel)
    (hinit : init (Shape.Idx.first hu) = 0) (i : Fin a) (j : Fin b) :
    Host.reduceAdd (F := Ideal) (φ := .f32) x init h' hu (ix2 i j) = ∑ k : Fin c, x (ix3 i j k) := by
  have h : (⟨3, ![a, b, c]⟩ : Shape).Reduces [2] ⟨2, ![a, b]⟩ := ⟨h'.1, Nat.two_pos, h'.2⟩
  show Ideal.hostReduceAdd h' x (init (Shape.Idx.first hu)) (ix2 i j) = _
  rw [hinit, Ideal.hostReduceAdd_single h' h x 0 (ix2 i j), zero_add]
  refine Finset.sum_congr rfl fun k _ => congrArg x (funext fun ax => Fin.ext ?_)
  match ax with
  | ⟨0, _⟩ => rfl
  | ⟨1, _⟩ => rfl
  | ⟨2, _⟩ => rfl

end Helpers

/-! ## Pointwise host operations at the extended reals -/

theorem hostDivf_apply {s : Shape} (x y : FVec Ideal s .f32) (i : s.Idx) : Host.divf x y i = Ideal.div (x i) (y i) := rfl
theorem hostSqrt_apply {s : Shape} (x : FVec Ideal s .f32) (i : s.Idx) : Host.sqrt x i = Ideal.sqrt (x i) := rfl
theorem hostRsqrt_apply {s : Shape} (x : FVec Ideal s .f32) (i : s.Idx) : Host.rsqrt x i = Ideal.rsqrt (x i) := rfl
theorem hostLog_apply {s : Shape} (x : FVec Ideal s .f32) (i : s.Idx) : Host.log x i = Ideal.log (x i) := rfl

/-- A matrix whose second axis is split in two reads, at `(r, k, p)`, the matrix at `(r, k · d + p)`. -/
theorem shapeCast_ab_acd_apply {α : Type} {a b c d : ℕ} (X : (⟨2, ![a, b]⟩ : Shape).Idx → α)
    (h : (⟨2, ![a, b]⟩ : Shape).ShapeCasts ⟨3, ![a, c, d]⟩) (hb : b = c * d) (r : Fin a) (k : Fin c) (p : Fin d) (kp : Fin b)
    (hkp : kp.val = k.val * d + p.val) : shapeCast ⟨3, ![a, c, d]⟩ X h (ix3 r k p) = X (ix2 r kp) :=
  shapeCast_apply X h _ _ (by
    rw [Shape.rowMajor_val_two, Shape.rowMajor_val_three]
    show r.val * b + kp.val = (r.val * c + k.val) * d + p.val
    rw [hkp, hb]; ring)

end Cert.LibHostRead

end
-- ==== Proof.RefMeans.lean ====
/-
  The reference's neighbour mean against the kernel's arrangement of it.  The reference divides each neighbour sum
  by max(count, 1) of its row, the divisor laid out as a column and then along the row.  The kernel's host side
  forms the reciprocal 1 / max(count, 1) per row, lays it out as a column, and the kernel multiplies the sums by
  it.  Entry by entry these are the same extended real: the divisor is at least one, so it is not zero, and a
  quotient by a nonzero divisor is the product with its inverse.
-/
import proofs.«121893_j5789615915673_2_alg».proof.Proof.Gen.ReferenceIdeal.Read
import proofs.«121893_j5789615915673_2_alg».proof.Proof.Spec
import proofs.«121893_j5789615915673_2_alg».proof.Proof.LibHostRead

noncomputable section

namespace Cert.ReferenceIdeal.Means

open Cert.ReferenceIdeal Cert.ReferenceIdeal.Gen Cert.ReferenceIdeal.Read Idealize.ShloMosaic Idealize.ShloMosaic.ValueIdx
open scoped BigOperators

/-- The first layer's column of reciprocals 1 / max(count, 1), in the reference's own stages. -/
def recip0 (x2 : (⟨S409600, .i32⟩ : BufTy).Contents (Elt Ideal)) : (⟨S40960x1, .f32⟩ : BufTy).Contents (Elt Ideal) :=
  broadcastInDim S40960x1 ![0] bcast_S40960_S40960x1_0
    (Host.divf (F := Ideal) (broadcastInDim S40960 ![] bcast_S_S40960 (constant (F := Ideal) S_ .f32 0x3F800000#32))
      (val_main_v16 (F := Ideal) x2))

/-- The second layer's column of reciprocals. -/
def recip1 (x4 : (⟨S40960, .i32⟩ : BufTy).Contents (Elt Ideal)) : (⟨S4096x1, .f32⟩ : BufTy).Contents (Elt Ideal) :=
  broadcastInDim S4096x1 ![0] bcast_S4096_S4096x1_0
    (Host.divf (F := Ideal) (broadcastInDim S4096 ![] bcast_S_S4096 (constant (F := Ideal) S_ .f32 0x3F800000#32))
      (val_main_v43 (F := Ideal) x4))

/-- First layer: the reference's mean is its neighbour sums with every row times that row's reciprocal. -/
theorem mean0 (x0 : (⟨S409600x256, .f32⟩ : BufTy).Contents (Elt Ideal)) (x1 x2 : (⟨S409600, .i32⟩ : BufTy).Contents (Elt Ideal)) :
    val_main_v19 (F := Ideal) x0 x1 x2 = Cert.Sage.rowScale (val_main_v10 (F := Ideal) x0 x1 x2) (recip0 x2) := by
  funext j
  obtain ⟨p, c, rfl⟩ : ∃ (p : Fin 40960) (c : Fin 256), j = ix2 p c := ⟨j 0, j 1, eq_ix2 j⟩
  have e1 : idx_main_v17 (idx_main_v18 (ix2 p c)) = ix1 p := funext fun a => Fin.ext (by
    match a with | ⟨0, _⟩ => rfl)
  rw [val_main_v19_apply, val_main_v18_apply, val_main_v17_apply, e1, Cert.Sage.rowScale_apply]
  unfold recip0
  rw [Cert.LibHostRead.bcast_a_a1_apply _ bcast_S40960_S40960x1_0 p (0 : Fin 1), Cert.LibHostRead.hostDivf_apply,
    Cert.LibHostRead.bcastConst_apply, val_main_v16_apply, val_main_v15_apply, val_main_cst_3_apply]
  exact (Cert.Sage.mul_recip_eq_div _ _).symm

/-- Second layer: the same, over 4096 rows. -/
theorem mean1 (x0 : (⟨S409600x256, .f32⟩ : BufTy).Contents (Elt Ideal)) (x1 x2 : (⟨S409600, .i32⟩ : BufTy).Contents (Elt Ideal))
    (x3 x4 : (⟨S40960, .i32⟩ : BufTy).Contents (Elt Ideal))
    (x5 x6 : (⟨S256x256, .f32⟩ : BufTy).Contents (Elt Ideal)) (x7 : (⟨S256, .f32⟩ : BufTy).Contents (Elt Ideal)) :
    val_main_v46 (F := Ideal) x0 x1 x2 x3 x4 x5 x6 x7
      = Cert.Sage.rowScale (val_main_v37 (F := Ideal) x0 x1 x2 x3 x4 x5 x6 x7) (recip1 x4) := by
  funext j
  obtain ⟨p, c, rfl⟩ : ∃ (p : Fin 4096) (c : Fin 256), j = ix2 p c := ⟨j 0, j 1, eq_ix2 j⟩
  have e1 : idx_main_v44 (idx_main_v45 (ix2 p c)) = ix1 p := funext fun a => Fin.ext (by
    match a with | ⟨0, _⟩ => rfl)
  rw [val_main_v46_apply, val_main_v45_apply, val_main_v44_apply, e1, Cert.Sage.rowScale_apply]
  unfold recip1
  rw [Cert.LibHostRead.bcast_a_a1_apply _ bcast_S4096_S4096x1_0 p (0 : Fin 1), Cert.LibHostRead.hostDivf_apply,
    Cert.LibHostRead.bcastConst_apply, val_main_v43_apply, val_main_v42_apply, val_main_cst_9_apply]
  exact (Cert.Sage.mul_recip_eq_div _ _).symm

end Cert.ReferenceIdeal.Means

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.Region1.lean ====
/-
  The value of the second combine region: one layer of the mean-aggregating network without the rectifier.
  Each grid point stages 2048 rows of the features, of the neighbour sums and of the reciprocal counts, the two
  256×47 weight matrices and the 1×47 bias row whole, and stores, for its 2048 rows, the entries
  (Σ_c h(p,c)·Ws(c,q) + Σ_c (s(p,c)·r(p))·Wn(c,q)) + b(q).  The two grid points' blocks tile the 4096 rows, so the
  output array after the region is the layer of the whole arrays, entry by entry.
-/
import proofs.«121893_j5789615915673_2_alg».proof.Proof.Gen.KernelIdeal.Frame
import proofs.«121893_j5789615915673_2_alg».proof.Proof.Spec
import proofs.«121893_j5789615915673_2_alg».proof.Proof.LibDot
import proofs.«121893_j5789615915673_2_alg».proof.Proof.LibKeepdims
import Idealize.ShloMosaic.Lib.Pipeline.Value
import Idealize.ShloMosaic.Lib.ValueLayout
import Idealize.ShloMosaic.Lib.ValueIdx

noncomputable section

namespace Cert.KernelIdeal.Region1

open Idealize.ShloMosaic Idealize.ShloMosaic.ValueIdx Cert.KernelIdeal Cert.KernelIdeal.Gen
open Idealize.ShloMosaic.TcCoe Idealize.SL.Sem
open Idealize.ShloMosaic.Pipeline (Dat)
open scoped BigOperators

/-! ## The body's stored value at an index -/

/-- Entry (p, q) of the value the body stores, from the blocks it loads: the features block times the first weight
    matrix, plus the neighbour sums scaled row by row by the reciprocal counts times the second weight matrix,
    plus the bias row's entry q.  The roundings to bf16 are the identity on extended reals. -/
theorem stored_apply (v0 : Vec Ideal S2048x256 .f32) (v2 : Vec Ideal S2048x1 .f32) (v6 : Vec Ideal S2048x256 .bf16)
    (v9 v11 : Vec Ideal S256x47 .f32) (v16 : Vec Ideal S1x47 .f32) (p : Fin 2048) (q : Fin 47) :
    k1_pay1 (F := Ideal) v0 v2 v6 v9 v11 v16 (ix2 p q)
      = Cert.Sage.entry v6 (Cert.Sage.rowScale v0 v2) v9 v11 (Cert.Sage.rowOf v16) p q := by
  unfold k1_pay1
  simp only [shapeCast_self]
  unfold Cert.Sage.entry
  rw [addf_apply, addf_apply]
  refine congrArg₂ (· + ·) (congrArg₂ (· + ·) ?_ ?_) ?_
  · -- the features block against the first weight matrix: a plain sum over the 256 columns
    exact Cert.LibDot.matmul_zero_apply dot_S2048x256_S256x47_S2048x47_1_0_0_1_n_n_wf none v6 _ p q
  · -- the scaled neighbour sums against the second weight matrix; the scale of row p is the column's entry of row p
    refine (Cert.LibDot.matmul_zero_apply dot_S2048x256_S256x47_S2048x47_1_0_0_1_n_n_wf none _ _ p q).trans
      (Finset.sum_congr rfl fun c _ => ?_)
    show v0 (ix2 p c) * broadcastTo S2048x256 v2 broadcasts_S2048x1_S2048x256 (ix2 p c) * v11 (ix2 c q) = _
    rw [broadcastTo_a1_ab_apply]
    rfl
  · -- the bias row spread over the 2048 rows
    exact broadcastTo_1b_ab_apply v16 broadcasts_S1x47_S2048x47 p q

/-! ## The windows' blocks as rows of the arrays -/

theorem zero_offsets : (![0, 0] : Fin 2 → Nat) = fun _ => 0 := funext fun a => by fin_cases a <;> rfl

/-- The printed index maps over the grid: the features, the neighbour sums, the reciprocal counts and the output move
    with the grid coordinate along the rows; the weights and the bias row are staged whole. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- Row p of the features block at point t is row 2048·t + p of the features. -/
theorem features_block (c : Dev nD) (t : Fin cfg1.N) (p : Fin 2048) (P : Fin 4096) (hP : P.val = t.val * 2048 + p.val)
    (k : Fin 256) : (iblk1 (F := Ideal) V c 0 t : Vec Ideal S2048x256 .bf16) (ix2 p k) = (V c main_v32 : S4096x256.Idx → EReal) (ix2 P k) := by
  obtain ⟨e0, e1, -⟩ := index_facts t
  show (V c main_v32 : S4096x256.Idx → EReal) (((cfg1.win 0).blk t).view.emb (ix2 p k)) = _
  refine congrArg (V c main_v32 : S4096x256.Idx → EReal) (funext fun a => Fin.ext ?_)
  match a with
  | ⟨0, _⟩ => show win1_0.index t (0 : Fin 2) * 2048 + 1 * p.val = P.val; omega
  | ⟨1, _⟩ => show win1_0.index t (1 : Fin 2) * 256 + 1 * k.val = k.val; omega

/-- Row p of the neighbour-sums block at point t is row 2048·t + p of the neighbour sums. -/
theorem sums_block (c : Dev nD) (t : Fin cfg1.N) (p : Fin 2048) (P : Fin 4096) (hP : P.val = t.val * 2048 + p.val)
    (k : Fin 256) : (iblk1 (F := Ideal) V c 1 t : Vec Ideal S2048x256 .f32) (ix2 p k) = (V c main_v48 : S4096x256.Idx → EReal) (ix2 P k) := by
  obtain ⟨-, -, e0, e1, -⟩ := index_facts t
  show (V c main_v48 : S4096x256.Idx → EReal) (((cfg1.win 1).blk t).view.emb (ix2 p k)) = _
  refine congrArg (V c main_v48 : S4096x256.Idx → EReal) (funext fun a => Fin.ext ?_)
  match a with
  | ⟨0, _⟩ => show win1_1.index t (0 : Fin 2) * 2048 + 1 * p.val = P.val; omega
  | ⟨1, _⟩ => show win1_1.index t (1 : Fin 2) * 256 + 1 * k.val = k.val; omega

/-- Entry p of the reciprocal-count block at point t is entry 2048·t + p of the reciprocal counts. -/
theorem recip_block (c : Dev nD) (t : Fin cfg1.N) (p : Fin 2048) (P : Fin 4096) (hP : P.val = t.val * 2048 + p.val) :
    (iblk1 (F := Ideal) V c 2 t : Vec Ideal S2048x1 .f32) (ix2 p (0 : Fin 1)) = (V c main_v62 : S4096x1.Idx → EReal) (ix2 P (0 : Fin 1)) := by
  obtain ⟨-, -, -, -, e0, e1, -⟩ := index_facts t
  show (V c main_v62 : S4096x1.Idx → EReal) (((cfg1.win 2).blk t).view.emb (ix2 p (0 : Fin 1))) = _
  refine congrArg (V c main_v62 : S4096x1.Idx → EReal) (funext fun a => Fin.ext ?_)
  match a with
  | ⟨0, _⟩ => show win1_2.index t (0 : Fin 2) * 2048 + 1 * p.val = P.val; omega
  | ⟨1, _⟩ => show win1_2.index t (1 : Fin 2) * 1 + 1 * (0 : Fin 1).val = (0 : Fin 1).val; omega

/-- The first weight matrix is staged whole at every point. -/
theorem weights_self_block (c : Dev nD) (t : Fin cfg1.N) :
    (iblk1 (F := Ideal) V c 3 t : Vec Ideal S256x47 .f32) = (V c main_arg8 : S256x47.Idx → EReal) := by
  obtain ⟨-, -, -, -, -, -, e0, e1, -⟩ := index_facts t
  funext y
  show (V c main_arg8 : S256x47.Idx → EReal) (((cfg1.win 3).blk t).view.emb y) = _
  refine congrArg (V c main_arg8 : S256x47.Idx → EReal) (funext fun a => Fin.ext ?_)
  match a with
  | ⟨0, _⟩ => show win1_3.index t (0 : Fin 2) * 256 + 1 * (y 0).val = (y 0).val; omega
  | ⟨1, _⟩ => show win1_3.index t (1 : Fin 2) * 47 + 1 * (y 1).val = (y 1).val; omega

/-- The second weight matrix is staged whole at every point. -/
theorem weights_neigh_block (c : Dev nD) (t : Fin cfg1.N) :
    (iblk1 (F := Ideal) V c 4 t : Vec Ideal S256x47 .f32) = (V c main_arg9 : S256x47.Idx → EReal) := by
  obtain ⟨-, -, -, -, -, -, -, -, e0, e1, -⟩ := index_facts t
  funext y
  show (V c main_arg9 : S256x47.Idx → EReal) (((cfg1.win 4).blk t).view.emb y) = _
  refine congrArg (V c main_arg9 : S256x47.Idx → EReal) (funext fun a => Fin.ext ?_)
  match a with
  | ⟨0, _⟩ => show win1_4.index t (0 : Fin 2) * 256 + 1 * (y 0).val = (y 0).val; omega
  | ⟨1, _⟩ => show win1_4.index t (1 : Fin 2) * 47 + 1 * (y 1).val = (y 1).val; omega

/-- The bias row is staged whole at every point. -/
theorem bias_block (c : Dev nD) (t : Fin cfg1.N) (q : Fin 47) :
    (iblk1 (F := Ideal) V c 5 t : Vec Ideal S1x47 .f32) (ix2 (0 : Fin 1) q) = (V c main_v63 : S1x47.Idx → EReal) (ix2 (0 : Fin 1) q) := by
  obtain ⟨-, -, -, -, -, -, -, -, -, -, e0, e1, -⟩ := index_facts t
  show (V c main_v63 : S1x47.Idx → EReal) (((cfg1.win 5).blk t).view.emb (ix2 (0 : Fin 1) q)) = _
  refine congrArg (V c main_v63 : S1x47.Idx → EReal) (funext fun a => Fin.ext ?_)
  match a with
  | ⟨0, _⟩ => show win1_5.index t (0 : Fin 2) * 1 + 1 * (0 : Fin 1).val = (0 : Fin 1).val; omega
  | ⟨1, _⟩ => show win1_5.index t (1 : Fin 2) * 47 + 1 * q.val = q.val; omega

/-! ## What a grid point writes back, and the output array -/

/-- The layer of the arrays the region finds, as one function of the output's index. -/
abbrev layerOf (c : Dev nD) : S4096x47.Idx → EReal :=
  Cert.Sage.layer false (V c main_v32 : S4096x256.Idx → EReal)
    (Cert.Sage.rowScale (V c main_v48 : S4096x256.Idx → EReal) (V c main_v62 : S4096x1.Idx → EReal))
    (V c main_arg8 : S256x47.Idx → EReal) (V c main_arg9 : S256x47.Idx → EReal)
    (Cert.Sage.rowOf (V c main_v63 : S1x47.Idx → EReal))

/-- Entry (p, q) of what point t stores is entry (2048·t + p, q) of the layer of the arrays: an entry reads one row
    of the features and of the scaled neighbour sums, and row p of the blocks at t is row 2048·t + p of the arrays. -/
theorem stored_block (c : Dev nD) (t : Fin cfg1.N) (p : Fin 2048) (P : Fin 4096) (hP : P.val = t.val * 2048 + p.val)
    (q : Fin 47) :
    k1_pay1 (F := Ideal) (iblk1 V c 1 t) (iblk1 V c 2 t) (iblk1 V c 0 t) (iblk1 V c 3 t) (iblk1 V c 4 t) (iblk1 V c 5 t) (ix2 p q)
      = layerOf V c (ix2 P q) := by
  refine (stored_apply _ _ _ _ _ _ p q).trans ?_
  rw [weights_self_block V c t, weights_neigh_block V c t]
  refine (Cert.Sage.entry_congr (V c main_v32 : S4096x256.Idx → EReal)
    (Cert.Sage.rowScale (V c main_v48 : S4096x256.Idx → EReal) (V c main_v62 : S4096x1.Idx → EReal)) _ _ _ _
    (Cert.Sage.rowOf (V c main_v63 : S1x47.Idx → EReal)) _ P p q
    (fun k => features_block V c t p P hP k) (fun k => ?_) (bias_block V c t q)).trans ?_
  · rw [Cert.Sage.rowScale_apply, Cert.Sage.rowScale_apply, sums_block V c t p P hP k, recip_block V c t p P hP]
  · rfl

/-- The block of the output's index space at point t, entry by entry. -/
theorem stored_eq_read (c : Dev nD) (t : Fin cfg1.N) :
    (k1_pay1 (F := Ideal) (iblk1 V c 1 t) (iblk1 V c 2 t) (iblk1 V c 0 t) (iblk1 V c 3 t) (iblk1 V c 4 t) (iblk1 V c 5 t)
        : S2048x47.Idx → EReal)
      = fun j : S2048x47.Idx => layerOf V c (((cfg1.win 6).blk t).view.emb j) := by
  obtain ⟨-, -, -, -, -, -, -, -, -, -, -, -, e0, e1⟩ := index_facts t
  have hN : cfg1.N = 2 := N_1
  have ht : t.val < cfg1.N := t.isLt
  funext j
  obtain ⟨p, q, rfl⟩ : ∃ (p : Fin 2048) (q : Fin 47), j = ix2 p q := ⟨j 0, j 1, eq_ix2 j⟩
  have hp : p.val < 2048 := p.isLt
  have hemb : ((cfg1.win 6).blk t).view.emb (ix2 p q) = ix2 (⟨t.val * 2048 + p.val, by omega⟩ : Fin 4096) q := by
    funext a; apply Fin.ext
    match a with
    | ⟨0, _⟩ => show win1_6.index t (0 : Fin 2) * 2048 + 1 * p.val = t.val * 2048 + p.val; omega
    | ⟨1, _⟩ => show win1_6.index t (1 : Fin 2) * 47 + 1 * q.val = q.val; omega
  show _ = layerOf V c (((cfg1.win 6).blk t).view.emb (ix2 p q))
  rw [hemb]
  exact stored_block V c t p _ rfl q

/-- What point t writes back is block t of the layer of the arrays. -/
theorem flushed_eq (c : Dev nD) (t : Fin cfg1.N) :
    (dat1 (F := Ideal) V c).flushed 6 t = ((cfg1.win 6).blk t).view.read (Elt Ideal) (layerOf V c) := by
  show (cfg1.win 6).cut (grid1.coords t) ((dat1 V c).after 6 t) = _
  rw [after1_6]
  unfold out1_6
  rw [View.canon_unit_zero zero_offsets]
  simp only [View.ld_unit_zero (S := S2048x256) zero_offsets, View.ld_unit_zero (S := S2048x1) zero_offsets,
    View.ld_unit_zero (S := S256x47) zero_offsets, View.ld_unit_zero (S := S1x47) zero_offsets]
  exact stored_eq_read V c t

/-- An index of the output is in point t's block iff each coordinate is in the block's range on its axis. -/
theorem mem_block (t : Fin cfg1.N) (i : S4096x47.Idx) :
    i ∈ ((cfg1.win 6).blk t).view.set ↔ ∀ a : Fin 2, win1_6.index t a * S2048x47.size a ≤ (i a).val
      ∧ (i a).val < win1_6.index t a * S2048x47.size a + S2048x47.size a := by
  show i ∈ ((View.whole main_v64).slice (win1_6.rect t)).set ↔ _
  rw [View.set_slice_whole, Rect.mem_set_unit]
  exact Iff.rfl

/-- The two points' blocks of 2048 rows tile the 4096 rows: row r is in the block of point r / 2048. -/
theorem covered (i : S4096x47.Idx) :
    ∃ t : Fin cfg1.N, (cfg1.win 6).flush t = true ∧ i ∈ ((cfg1.win 6).blk t).view.set := by
  have hN : cfg1.N = 2 := N_1
  have hi0 : (i 0).val < 4096 := (i 0).isLt
  have hi1 : (i 1).val < 47 := (i 1).isLt
  obtain ⟨t, ht⟩ : ∃ t : Fin cfg1.N, t.val = (i 0).val / 2048 := ⟨⟨(i 0).val / 2048, by omega⟩, rfl⟩
  obtain ⟨-, -, -, -, -, -, -, -, -, -, -, -, e0, e1⟩ := index_facts t
  refine ⟨t, flush1_6 t, ?_⟩
  rw [mem_block]
  intro a
  match a with
  | ⟨0, _⟩ =>
    show win1_6.index t (0 : Fin 2) * 2048 ≤ (i 0).val ∧ (i 0).val < win1_6.index t (0 : Fin 2) * 2048 + 2048
    omega
  | ⟨1, _⟩ =>
    show win1_6.index t (1 : Fin 2) * 47 ≤ (i 1).val ∧ (i 1).val < win1_6.index t (1 : Fin 2) * 47 + 47
    omega

/-- THE OUTPUT ARRAY after the region is the layer, without the rectifier, of the arrays the region finds: the
    features, the neighbour sums scaled row by row by the reciprocal counts, the two weight matrices and the bias row. -/
theorem final (c : Dev nD) :
    (dat1 (F := Ideal) V c).arrAt 6 cfg1.N
      = Cert.Sage.layer false (V c main_v32) (Cert.Sage.rowScale (V c main_v48) (V c main_v62)) (V c main_arg8)
          (V c main_arg9) (Cert.Sage.rowOf (V c main_v63)) :=
  (dat1 (F := Ideal) V c).arrAt_eq_of_cover 6 (layerOf V c) (fun t _ => flushed_eq V c t) covered

end Cert.KernelIdeal.Region1

end
-- ==== Proof.Region0.lean ====
/-
  The first layer of a mean-aggregating graph network, as one whole-array function of the arrays its
  pipelined region finds. A grid of 20 points walks the 40960 destination rows in blocks of 2048; at each
  point the body reads a block of features, the block of neighbour sums and the column of reciprocal
  neighbour counts of the same rows, the two whole 256×256 weight matrices and the bias row, and stores
  max((features · Ws + (sums ⊙ reciprocal column) · Wn) + bias, 0) for its rows. Entry (p, q) of a block reads row p of
  the block's inputs only, which is row t·2048 + p of the arrays; the 20 blocks tile the output array.
-/
import proofs.«121893_j5789615915673_2_alg».proof.Proof.Gen.KernelIdeal.Frame
import proofs.«121893_j5789615915673_2_alg».proof.Proof.Spec
import proofs.«121893_j5789615915673_2_alg».proof.Proof.LibDot
import proofs.«121893_j5789615915673_2_alg».proof.Proof.LibKeepdims
import Idealize.ShloMosaic.Lib.Pipeline.Value
import Idealize.ShloMosaic.Lib.ValueLayout
import Idealize.ShloMosaic.Lib.ValueIdx

set_option maxRecDepth 16384

noncomputable section

namespace Cert.KernelIdeal.Region0

open Idealize.ShloMosaic Idealize.ShloMosaic.ValueIdx Cert.KernelIdeal Cert.KernelIdeal.Gen
open Idealize.ShloMosaic.TcCoe Idealize.SL.Sem
open Idealize.ShloMosaic.Pipeline (Dat)
open scoped BigOperators

/-! ## The body's stored value at an index -/

/-- The product of the features block with the first weights, at (p, q): narrowing to bf16 is the identity on
    extended reals, and the matrix unit's product into a zero accumulator is the sum over the contracted axis. -/
theorem dot_self_apply (v6 : Vec Ideal S2048x256 .f32) (v10 : Vec Ideal S256x256 .f32) (p : Fin 2048) (q : Fin 256) :
    matmul dot_S2048x256_S256x256_S2048x256_1_0_0_1_n_n none (truncf (F := Ideal) .bf16 v6 bitsLt_bf16_f32)
        (truncf (F := Ideal) .bf16 v10 bitsLt_bf16_f32) (constant (F := Ideal) S2048x256 .f32 0x00000000#32) (ix2 p q)
      = ∑ c : Fin 256, v6 (ix2 p c) * v10 (ix2 c q) :=
  Cert.LibDot.matmul_zero_apply (m := 2048) (k := 256) (n := 256) dot_S2048x256_S256x256_S2048x256_1_0_0_1_n_n_wf none
    (truncf (F := Ideal) .bf16 v6 bitsLt_bf16_f32) (truncf (F := Ideal) .bf16 v10 bitsLt_bf16_f32) p q

/-- The product of the scaled sums block with the second weights, at (p, q): row p of the sums block times the
    reciprocal count of row p (the column spread over the 256 columns reads its row's entry), against column q. -/
theorem dot_scaled_apply (v0 : Vec Ideal S2048x256 .f32) (v2 : Vec Ideal S2048x1 .f32) (v12 : Vec Ideal S256x256 .f32)
    (p : Fin 2048) (q : Fin 256) :
    matmul dot_S2048x256_S256x256_S2048x256_1_0_0_1_n_n none
        (truncf (F := Ideal) .bf16 (mulf v0 (broadcastTo S2048x256 v2 broadcasts_S2048x1_S2048x256)) bitsLt_bf16_f32)
        (truncf (F := Ideal) .bf16 v12 bitsLt_bf16_f32) (constant (F := Ideal) S2048x256 .f32 0x00000000#32) (ix2 p q)
      = ∑ c : Fin 256, Cert.Sage.rowScale v0 v2 (ix2 p c) * v12 (ix2 c q) := by
  refine (Cert.LibDot.matmul_zero_apply (m := 2048) (k := 256) (n := 256) dot_S2048x256_S256x256_S2048x256_1_0_0_1_n_n_wf none
    (truncf (F := Ideal) .bf16 (mulf v0 (broadcastTo S2048x256 v2 broadcasts_S2048x1_S2048x256)) bitsLt_bf16_f32)
    (truncf (F := Ideal) .bf16 v12 bitsLt_bf16_f32) p q).trans ?_
  refine Finset.sum_congr rfl fun c _ => ?_
  show v0 (ix2 p c) * broadcastTo S2048x256 v2 broadcasts_S2048x1_S2048x256 (ix2 p c) * v12 (ix2 c q) = _
  rw [broadcastTo_a1_ab_apply v2 broadcasts_S2048x1_S2048x256 p c, Cert.Sage.rowScale_apply]

/-- Entry (p, q) of the block the body stores: the rectified layer entry of the block's own rows — the
    features block against the first weights plus the row-scaled sums block against the second, plus the bias. -/
theorem payload_apply (v0 : Vec Ideal S2048x256 .f32) (v2 : Vec Ideal S2048x1 .f32) (v6 : Vec Ideal S2048x256 .f32)
    (v10 : Vec Ideal S256x256 .f32) (v12 : Vec Ideal S256x256 .f32) (v17 : Vec Ideal S1x256 .f32)
    (p : Fin 2048) (q : Fin 256) :
    k0_pay1 v0 v2 v6 v10 v12 v17 (ix2 p q)
      = Cert.Sage.act true (Cert.Sage.entry v6 (Cert.Sage.rowScale v0 v2) v10 v12 (Cert.Sage.rowOf v17) p q) := by
  unfold k0_pay1
  simp only [shapeCast_self]
  -- narrowing is the identity; the maximum, the sums and the splat zero are read elementwise
  show max ((matmul dot_S2048x256_S256x256_S2048x256_1_0_0_1_n_n none (truncf (F := Ideal) .bf16 v6 bitsLt_bf16_f32)
        (truncf (F := Ideal) .bf16 v10 bitsLt_bf16_f32) (constant (F := Ideal) S2048x256 .f32 0x00000000#32) (ix2 p q)
      + matmul dot_S2048x256_S256x256_S2048x256_1_0_0_1_n_n none
        (truncf (F := Ideal) .bf16 (mulf v0 (broadcastTo S2048x256 v2 broadcasts_S2048x1_S2048x256)) bitsLt_bf16_f32)
        (truncf (F := Ideal) .bf16 v12 bitsLt_bf16_f32) (constant (F := Ideal) S2048x256 .f32 0x00000000#32) (ix2 p q))
      + broadcastTo S2048x256 v17 broadcasts_S1x256_S2048x256 (ix2 p q)) (Ideal.ofBits .f32 0x00000000#32) = _
  rw [dot_self_apply, dot_scaled_apply, broadcastTo_1b_ab_apply v17 broadcasts_S1x256_S2048x256 p q]
  rfl

/-! ## What a grid point writes back -/

theorem hz : (![0, 0] : Fin 2 → Nat) = fun _ => 0 := funext fun a => by fin_cases a <;> rfl

/-- The windows' index maps over the 20 grid points: the row-blocked windows (features, sums, reciprocal counts,
    output) sit at block row t and block column 0; the weights and the bias row are one block, at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of block t is row t·2048 + p of the 40960-row arrays. -/
def row (t : Fin cfg0.N) (p : Fin 2048) : Fin 40960 :=
  ⟨t.val * 2048 + p.val, by
    have ht : t.val < 20 := lt_of_lt_of_eq t.isLt N_0
    have hp := p.isLt
    omega⟩

theorem row_val (t : Fin cfg0.N) (p : Fin 2048) : (row t p).val = t.val * 2048 + p.val := rfl

section Region
variable (V : (c : Dev nD) → (b : Ref sig .tc) → Buf (Elt Ideal) ((c : Thread nD τ).loc b))

/-- The features block at point t, at (p, k): the features array at row t·2048 + p. -/
theorem blk_features (c : Dev nD) (t : Fin cfg0.N) (p : Fin 2048) (k : Fin 256) :
    iblk0 V c 0 t (ix2 p k) = (V c main_v0 : S40960x256.Idx → EReal) (ix2 (row t p) k) := by
  obtain ⟨e0, e1, -⟩ := idx_facts t
  show (V c main_v0 : S40960x256.Idx → EReal) (((cfg0.win 0).blk t).view.emb (ix2 p k)) = _
  refine congrArg _ (funext fun a => Fin.ext ?_)
  match a with
  | ⟨0, _⟩ => show win0_0.index t (0 : Fin 2) * 2048 + 1 * p.val = t.val * 2048 + p.val; omega
  | ⟨1, _⟩ => show win0_0.index t (1 : Fin 2) * 256 + 1 * k.val = k.val; omega

/-- The neighbour-sums block at point t, at (p, k): the sums array at row t·2048 + p. -/
theorem blk_sums (c : Dev nD) (t : Fin cfg0.N) (p : Fin 2048) (k : Fin 256) :
    iblk0 V c 1 t (ix2 p k) = (V c main_v15 : S40960x256.Idx → EReal) (ix2 (row t p) k) := by
  obtain ⟨-, -, e0, e1, -⟩ := idx_facts t
  show (V c main_v15 : S40960x256.Idx → EReal) (((cfg0.win 1).blk t).view.emb (ix2 p k)) = _
  refine congrArg _ (funext fun a => Fin.ext ?_)
  match a with
  | ⟨0, _⟩ => show win0_1.index t (0 : Fin 2) * 2048 + 1 * p.val = t.val * 2048 + p.val; omega
  | ⟨1, _⟩ => show win0_1.index t (1 : Fin 2) * 256 + 1 * k.val = k.val; omega

/-- The reciprocal-count block at point t, at (p, 0): the reciprocal-count column at row t·2048 + p. -/
theorem blk_recip (c : Dev nD) (t : Fin cfg0.N) (p : Fin 2048) :
    iblk0 V c 2 t (ix2 p (0 : Fin 1)) = (V c main_v29 : S40960x1.Idx → EReal) (ix2 (row t p) (0 : Fin 1)) := by
  obtain ⟨-, -, -, -, e0, e1, -⟩ := idx_facts t
  show (V c main_v29 : S40960x1.Idx → EReal) (((cfg0.win 2).blk t).view.emb (ix2 p (0 : Fin 1))) = _
  refine congrArg _ (funext fun a => Fin.ext ?_)
  match a with
  | ⟨0, _⟩ => show win0_2.index t (0 : Fin 2) * 2048 + 1 * p.val = t.val * 2048 + p.val; omega
  | ⟨1, _⟩ => show win0_2.index t (1 : Fin 2) * 1 + 1 * (0 : Fin 1).val = (0 : Fin 1).val; omega

/-- The first weights' one block is the whole array. -/
theorem blk_Ws (c : Dev nD) (t : Fin cfg0.N) : iblk0 V c 3 t = (V c main_arg5 : S256x256.Idx → EReal) := by
  obtain ⟨-, -, -, -, -, -, e0, e1, -⟩ := idx_facts t
  funext y
  show (V c main_arg5 : S256x256.Idx → EReal) (((cfg0.win 3).blk t).view.emb y) = _
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

/-- The second weights' one block is the whole array. -/
theorem blk_Wn (c : Dev nD) (t : Fin cfg0.N) : iblk0 V c 4 t = (V c main_arg6 : S256x256.Idx → EReal) := by
  obtain ⟨-, -, -, -, -, -, -, -, e0, e1, -⟩ := idx_facts t
  funext y
  show (V c main_arg6 : S256x256.Idx → EReal) (((cfg0.win 4).blk t).view.emb y) = _
  refine congrArg _ (funext fun a => Fin.ext ?_)
  match a with
  | ⟨0, _⟩ => show win0_4.index t (0 : Fin 2) * 256 + 1 * (y 0).val = (y 0).val; omega
  | ⟨1, _⟩ => show win0_4.index t (1 : Fin 2) * 256 + 1 * (y 1).val = (y 1).val; omega

/-- The bias row's one block is the whole 1×256 array. -/
theorem blk_bias (c : Dev nD) (t : Fin cfg0.N) : iblk0 V c 5 t = (V c main_v30 : S1x256.Idx → EReal) := by
  obtain ⟨-, -, -, -, -, -, -, -, -, -, e0, e1, -⟩ := idx_facts t
  funext y
  show (V c main_v30 : S1x256.Idx → EReal) (((cfg0.win 5).blk t).view.emb y) = _
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 256 + 1 * (y 1).val = (y 1).val; omega

/-- The layer of the arrays the region finds: the features, the neighbour sums scaled row by row by the reciprocal
    counts, the two weight matrices, the bias row; rectified. -/
abbrev G (c : Dev nD) : S40960x256.Idx → EReal :=
  Cert.Sage.layer true (V c main_v0 : S40960x256.Idx → EReal)
    (Cert.Sage.rowScale (V c main_v15 : S40960x256.Idx → EReal) (V c main_v29 : S40960x1.Idx → EReal))
    (V c main_arg5 : S256x256.Idx → EReal) (V c main_arg6 : S256x256.Idx → EReal)
    (Cert.Sage.rowOf (V c main_v30 : S1x256.Idx → EReal))

/-- An element (p, q) of the output's block at point t sits in the output array at (t·2048 + p, q). -/
theorem out_emb (t : Fin cfg0.N) (p : Fin 2048) (q : Fin 256) :
    ((cfg0.win 6).blk t).view.emb (ix2 p q) = (ix2 (row t p) q : S40960x256.Idx) := by
  obtain ⟨-, -, -, -, -, -, -, -, -, -, -, -, e0, e1⟩ := idx_facts t
  refine funext fun a => Fin.ext ?_
  match a with
  | ⟨0, _⟩ => show win0_6.index t (0 : Fin 2) * 2048 + 1 * p.val = t.val * 2048 + p.val; omega
  | ⟨1, _⟩ => show win0_6.index t (1 : Fin 2) * 256 + 1 * q.val = q.val; omega

/-- What point t writes back is block t of the layer of the arrays: entry (p, q) of the stored block is the
    rectified layer entry of the blocks' row p, which is the arrays' row t·2048 + p. -/
theorem flushed_eq (c : Dev nD) (t : Fin cfg0.N) :
    (dat0 (F := Ideal) V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S2048x256) hz, View.ld_unit_zero (S := S2048x1) hz, View.ld_unit_zero (S := S256x256) hz, View.ld_unit_zero (S := S1x256) hz]
  funext j
  obtain ⟨p, q, rfl⟩ : ∃ (p : Fin 2048) (q : Fin 256), j = ix2 p q := ⟨j 0, j 1, eq_ix2 j⟩
  refine (payload_apply (iblk0 V c 1 t) (iblk0 V c 2 t) (iblk0 V c 0 t) (iblk0 V c 3 t) (iblk0 V c 4 t) (iblk0 V c 5 t) p q).trans ?_
  show _ = G V c (((cfg0.win 6).blk t).view.emb (ix2 p q))
  rw [out_emb t p q, blk_Ws V c t, blk_Wn V c t, blk_bias V c t]
  show _ = Cert.Sage.act true (Cert.Sage.entry (V c main_v0 : S40960x256.Idx → EReal)
    (Cert.Sage.rowScale (V c main_v15 : S40960x256.Idx → EReal) (V c main_v29 : S40960x1.Idx → EReal))
    (V c main_arg5 : S256x256.Idx → EReal) (V c main_arg6 : S256x256.Idx → EReal)
    (Cert.Sage.rowOf (V c main_v30 : S1x256.Idx → EReal)) (row t p) q)
  refine congrArg (Cert.Sage.act true) ?_
  refine Cert.Sage.entry_congr _ _ _ _ _ _ _ _ (row t p) p q (fun k => blk_features V c t p k) (fun k => ?_) rfl
  rw [Cert.Sage.rowScale_apply, Cert.Sage.rowScale_apply, blk_sums V c t p k, blk_recip V c t p]

end Region

/-! ## The blocks tile the output array -/

/-- An index of the output array is in point t's block iff each coordinate is in the block's range on its axis. -/
theorem mem_blk (t : Fin cfg0.N) (i : S40960x256.Idx) :
    i ∈ ((cfg0.win 6).blk t).view.set ↔ ∀ a : Fin 2, win0_6.index t a * S2048x256.size a ≤ (i a).val ∧ (i a).val < win0_6.index t a * S2048x256.size a + S2048x256.size a := by
  show i ∈ ((View.whole main_v31).slice (win0_6.rect t)).set ↔ _
  rw [View.set_slice_whole, Rect.mem_set_unit]
  exact Iff.rfl

/-- Row r of the output array is in the block of point r / 2048, which writes back. -/
theorem cover (i : S40960x256.Idx) :
    ∃ t : Fin cfg0.N, (cfg0.win 6).flush t = true ∧ i ∈ ((cfg0.win 6).blk t).view.set := by
  have hi0 : (i 0).val < 40960 := (i 0).isLt
  have hi1 : (i 1).val < 256 := (i 1).isLt
  have ht : (i 0).val / 2048 < cfg0.N := by
    have hN : cfg0.N = 20 := N_0
    omega
  obtain ⟨-, -, -, -, -, -, -, -, -, -, -, -, e0, e1⟩ := idx_facts ⟨(i 0).val / 2048, ht⟩
  refine ⟨⟨(i 0).val / 2048, ht⟩, flush0_6 _, ?_⟩
  rw [mem_blk]
  intro a
  match a with
  | ⟨0, _⟩ =>
    show win0_6.index ⟨(i 0).val / 2048, ht⟩ (0 : Fin 2) * 2048 ≤ (i 0).val ∧ (i 0).val < win0_6.index ⟨(i 0).val / 2048, ht⟩ (0 : Fin 2) * 2048 + 2048
    have e0' : win0_6.index ⟨(i 0).val / 2048, ht⟩ (0 : Fin 2) = (i 0).val / 2048 := e0
    omega
  | ⟨1, _⟩ =>
    show win0_6.index ⟨(i 0).val / 2048, ht⟩ (1 : Fin 2) * 256 ≤ (i 1).val ∧ (i 1).val < win0_6.index ⟨(i 0).val / 2048, ht⟩ (1 : Fin 2) * 256 + 256
    omega

/-! ## The region's output array -/

/-- After the region the output array is the rectified layer of the arrays the region finds. -/
theorem final (V : (c : Dev nD) → (b : Ref sig .tc) → Buf (Elt Ideal) ((c : Thread nD τ).loc b)) (c : Dev nD) :
    (dat0 (F := Ideal) V c).arrAt 6 cfg0.N
      = Cert.Sage.layer true (V c main_v0 : S40960x256.Idx → EReal)
          (Cert.Sage.rowScale (V c main_v15 : S40960x256.Idx → EReal) (V c main_v29 : S40960x1.Idx → EReal))
          (V c main_arg5 : S256x256.Idx → EReal) (V c main_arg6 : S256x256.Idx → EReal)
          (Cert.Sage.rowOf (V c main_v30 : S1x256.Idx → EReal)) :=
  (dat0 V c).arrAt_eq_of_cover 6 (G V c) (fun t _ => flushed_eq V c t) cover

end Cert.KernelIdeal.Region0

end
-- ==== Proof.LibRow.lean ====
/-
  A vector laid out as a one-row matrix. Reshaping a length-n vector to shape 1×n and broadcasting it along a new
  leading axis of extent 1 are the same array: entry (0, q) is entry q of the vector.
-/
import Idealize.ShloMosaic.Lib.Pipeline.Value
import Idealize.ShloMosaic.Lib.ValueIdx

noncomputable section

namespace Cert.LibRow

open Idealize.ShloMosaic Idealize.ShloMosaic.ValueIdx

/-- The row-major reshape of a vector to one row is its broadcast along a new leading unit axis. -/
theorem reshape_row_eq_broadcast {n : Nat} {α : Type} (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, q, rfl⟩ : ∃ (z : Fin 1) (q : Fin n), j = ix2 z q := ⟨j 0, j 1, eq_ix2 j⟩
  have hq := q.isLt
  have hz := z.isLt
  rw [shapeCast_apply x h (ix2 z q) (ix1 q) (by
    rw [Shape.rowMajor_val_one, Shape.rowMajor_val_two]
    show q.val = z.val * n + q.val
    have : z.val = 0 := by omega
    rw [this]; omega)]
  exact (broadcastInDim_apply ![1] h' x (ix2 z q) (ix1 q) (fun a => by
    match a with
    | ⟨0, _⟩ => show q.val = if n = 1 then 0 else q.val; split <;> omega)).symm

end Cert.LibRow
-- ==== Proof.KLayer0.lean ====
/-
  The first layer on the kernel's side, in the reference's stages.  Before the first region the host operations
  slice the first 40960 rows of x, gather the source rows and add them into their destination rows, count each
  destination's neighbours, form the reciprocal 1 / max(count, 1) as a column, and reshape the bias to one row.
  They are the reference's own operations except that a destination index is first wrapped, "if i < 0 then i + N
  else i"; the destination indices are non-negative, so the wrap is the identity and the arrays the region finds
  are the reference's stages.  The region then leaves the layer of those arrays in its output, and the layer of
  the reference's stages is the reference's first layer.
-/
import proofs.«121893_j5789615915673_2_alg».proof.Proof.Gen.KernelIdeal.Frame
import proofs.«121893_j5789615915673_2_alg».proof.Proof.Gen.ReferenceIdeal.Read
import proofs.«121893_j5789615915673_2_alg».proof.Proof.Spec
import proofs.«121893_j5789615915673_2_alg».proof.Proof.PreDecode
import proofs.«121893_j5789615915673_2_alg».proof.Proof.RefLayers
import proofs.«121893_j5789615915673_2_alg».proof.Proof.RefMeans
import proofs.«121893_j5789615915673_2_alg».proof.Proof.Region0
import proofs.«121893_j5789615915673_2_alg».proof.Proof.LibRow
import proofs.«121893_j5789615915673_2_alg».proof.Proof.LibHostRead
import Idealize.ShloMosaic.Lib.StableHlo.Run

set_option maxRecDepth 16384

noncomputable section

namespace Cert.KernelIdeal.Layer0

open Idealize.ShloMosaic Idealize.ShloMosaic.TcCoe Idealize.ShloMosaic.Tactic Idealize.SL.Sem Idealize.ShloMosaic.StableHlo
open Idealize.ShloMosaic.ValueIdx
open Cert.KernelIdeal Cert.KernelIdeal.Gen
open Cert.ReferenceIdeal.Read (val_main_v0 val_main_v10 val_main_v16 val_main_v19 val_main_v26)

variable (m : (ℓ : Loc nD τ sig) → Buf (Elt Ideal) ℓ) (ρ : Dev nD → PrngReg) (c : Dev nD)

/-- A one-row reshape of a vector reads, in its row, the vector's entries. -/
theorem rowOf_reshape {d : Nat} (b : (⟨1, ![d]⟩ : Shape).Idx → EReal) (h : (⟨1, ![d]⟩ : Shape).ShapeCasts ⟨2, ![1, d]⟩)
    (h' : (⟨1, ![d]⟩ : Shape).BroadcastsInDim ⟨2, ![1, d]⟩ (![1] : Fin 1 → Fin 2)) :
    Cert.Sage.rowOf (shapeCast ⟨2, ![1, d]⟩ b h) = fun q => b (ix1 q) := by
  funext q
  unfold Cert.Sage.rowOf
  rw [Cert.LibRow.reshape_row_eq_broadcast b h h']
  exact Cert.LibHostRead.bcast_b_1b_apply b h' (0 : Fin 1) q

/-- The features the first region finds: the first 40960 rows of x. -/
theorem features_eq : V1 (F := Ideal) m ρ c main_v0 = val_main_v0 (F := Ideal) (m ((c.tc : Thread nD τ).loc main_arg0)) := by
  show StableHlo.after hostOps0 (W0 m ρ c) (Proc.devRef .tc main_v0) = _
  after_results_simp <;> rfl

set_option maxHeartbeats 4000000 in
/-- The neighbour sums the first region finds are the reference's, the destination indices being non-negative. -/
theorem sums_eq (h0 : ∀ i, 0 ≤ ((m ((c.tc : Thread nD τ).loc main_arg2)) i).toInt) :
    V1 (F := Ideal) m ρ c main_v15 = val_main_v10 (F := Ideal) (m ((c.tc : Thread nD τ).loc main_arg0)) (m ((c.tc : Thread nD τ).loc main_arg1)) (m ((c.tc : Thread nD τ).loc main_arg2)) := by
  show StableHlo.after hostOps0 (W0 m ρ c) (Proc.devRef .tc main_v15) = _
  after_results_simp
  have h0' : ∀ i, 0 ≤ ((W0 m ρ c (Proc.devRef .tc main_arg2)) i).toInt := h0
  rw [Cert.PreDecode.wrap_eq _ bcast_S_S409600 40960#32 h0']
  rfl

set_option maxHeartbeats 4000000 in
/-- The reciprocal-count column the first region finds is the reference's max(count, 1) inverted, as a column. -/
theorem recip_eq (h0 : ∀ i, 0 ≤ ((m ((c.tc : Thread nD τ).loc main_arg2)) i).toInt) :
    V1 (F := Ideal) m ρ c main_v29 = Cert.ReferenceIdeal.Means.recip0 (m ((c.tc : Thread nD τ).loc main_arg2)) := by
  show StableHlo.after hostOps0 (W0 m ρ c) (Proc.devRef .tc main_v29) = _
  after_results_simp
  have h0' : ∀ i, 0 ≤ ((W0 m ρ c (Proc.devRef .tc main_arg2)) i).toInt := h0
  rw [Cert.PreDecode.wrap_eq _ bcast_S_S409600 40960#32 h0']
  rfl

/-- The bias row the first region finds is b0 reshaped to one row. -/
theorem bias_eq : V1 (F := Ideal) m ρ c main_v30 = shapeCast S1x256 (m ((c.tc : Thread nD τ).loc main_arg7)) shapeCasts_S256_S1x256 := by
  show StableHlo.after hostOps0 (W0 m ρ c) (Proc.devRef .tc main_v30) = _
  after_results_simp <;> rfl

theorem wself_eq : V1 (F := Ideal) m ρ c main_arg5 = (m ((c.tc : Thread nD τ).loc main_arg5)) := by
  show StableHlo.after hostOps0 (W0 m ρ c) (Proc.devRef .tc main_arg5) = _
  after_results_simp <;> rfl

theorem wneigh_eq : V1 (F := Ideal) m ρ c main_arg6 = (m ((c.tc : Thread nD τ).loc main_arg6)) := by
  show StableHlo.after hostOps0 (W0 m ρ c) (Proc.devRef .tc main_arg6) = _
  after_results_simp <;> rfl

/-- After the first region its output array is the reference's first layer (with its rectifier). -/
theorem hidden_eq (h0 : ∀ i, 0 ≤ ((m ((c.tc : Thread nD τ).loc main_arg2)) i).toInt) :
    W2 (F := Ideal) m ρ c (Proc.devRef .tc main_v31)
      = val_main_v26 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) := by
  refine ((W2_arr m ρ c 6).trans (Cert.KernelIdeal.Region0.final (V1 m ρ) c)).trans ?_
  rw [features_eq, sums_eq m ρ c h0, recip_eq m ρ c h0, bias_eq, wself_eq, wneigh_eq,
    Cert.ReferenceIdeal.Layers.layer0, Cert.ReferenceIdeal.Means.mean0]
  exact congrArg _ (rowOf_reshape _ shapeCasts_S256_S1x256 (by decide))

end Cert.KernelIdeal.Layer0

end
-- ==== Proof.KLayer1.lean ====
/-
  The second layer on the kernel's side, in the reference's stages.  Between the regions the host operations slice
  the first 4096 rows of the first layer's output, gather its source rows and add them into their destination
  rows, count each destination's neighbours, form the reciprocal 1 / max(count, 1) as a column, and reshape the
  bias to one row.  The first layer's output is the reference's (stored in a narrower float format, which changes
  no extended real), the wrap of a non-negative destination index is the identity, so the arrays the second
  region finds are the reference's stages; the region leaves the layer of those arrays in the result, and the
  layer of the reference's stages is the reference's result.
-/
import proofs.«121893_j5789615915673_2_alg».proof.Proof.Gen.KernelIdeal.Frame
import proofs.«121893_j5789615915673_2_alg».proof.Proof.Gen.ReferenceIdeal.Read
import proofs.«121893_j5789615915673_2_alg».proof.Proof.Spec
import proofs.«121893_j5789615915673_2_alg».proof.Proof.PreDecode
import proofs.«121893_j5789615915673_2_alg».proof.Proof.RefLayers
import proofs.«121893_j5789615915673_2_alg».proof.Proof.RefMeans
import proofs.«121893_j5789615915673_2_alg».proof.Proof.Region1
import proofs.«121893_j5789615915673_2_alg».proof.Proof.KLayer0
import Idealize.ShloMosaic.Lib.StableHlo.Run

set_option maxRecDepth 16384

noncomputable section

namespace Cert.KernelIdeal.Layer1

open Idealize.ShloMosaic Idealize.ShloMosaic.TcCoe Idealize.ShloMosaic.Tactic Idealize.SL.Sem Idealize.ShloMosaic.StableHlo
open Idealize.ShloMosaic.ValueIdx
open Cert.KernelIdeal Cert.KernelIdeal.Gen
open Cert.ReferenceIdeal.Read (val_main_v26 val_main_v27 val_main_v37 val_main_v43 val_main_v46 val_main_v52)

variable (m : (ℓ : Loc nD τ sig) → Buf (Elt Ideal) ℓ) (ρ : Dev nD → PrngReg) (c : Dev nD)

/-- Argument 3 is still as launched when the second stretch of host operations starts. -/
theorem arg3_kept : W2 (F := Ideal) m ρ c (Proc.devRef .tc main_arg3) = (m ((c.tc : Thread nD τ).loc main_arg3)) :=
  (W2_of_ne m ρ c main_arg3 (by decide)).trans (by
    show StableHlo.after hostOps0 (W0 m ρ c) (Proc.devRef .tc main_arg3) = _
    after_results_simp <;> rfl)

/-- Argument 4 is still as launched when the second stretch of host operations starts. -/
theorem arg4_kept : W2 (F := Ideal) m ρ c (Proc.devRef .tc main_arg4) = (m ((c.tc : Thread nD τ).loc main_arg4)) :=
  (W2_of_ne m ρ c main_arg4 (by decide)).trans (by
    show StableHlo.after hostOps0 (W0 m ρ c) (Proc.devRef .tc main_arg4) = _
    after_results_simp <;> rfl)

/-- Argument 8 is still as launched when the second stretch of host operations starts. -/
theorem arg8_kept : W2 (F := Ideal) m ρ c (Proc.devRef .tc main_arg8) = (m ((c.tc : Thread nD τ).loc main_arg8)) :=
  (W2_of_ne m ρ c main_arg8 (by decide)).trans (by
    show StableHlo.after hostOps0 (W0 m ρ c) (Proc.devRef .tc main_arg8) = _
    after_results_simp <;> rfl)

/-- Argument 9 is still as launched when the second stretch of host operations starts. -/
theorem arg9_kept : W2 (F := Ideal) m ρ c (Proc.devRef .tc main_arg9) = (m ((c.tc : Thread nD τ).loc main_arg9)) :=
  (W2_of_ne m ρ c main_arg9 (by decide)).trans (by
    show StableHlo.after hostOps0 (W0 m ρ c) (Proc.devRef .tc main_arg9) = _
    after_results_simp <;> rfl)

/-- Argument 10 is still as launched when the second stretch of host operations starts. -/
theorem arg10_kept : W2 (F := Ideal) m ρ c (Proc.devRef .tc main_arg10) = (m ((c.tc : Thread nD τ).loc main_arg10)) :=
  (W2_of_ne m ρ c main_arg10 (by decide)).trans (by
    show StableHlo.after hostOps0 (W0 m ρ c) (Proc.devRef .tc main_arg10) = _
    after_results_simp <;> rfl)

/-- The features the second region finds: the first 4096 rows of the reference's first layer. -/
theorem features_eq (h0 : ∀ i, 0 ≤ ((m ((c.tc : Thread nD τ).loc main_arg2)) i).toInt) :
    V3 (F := Ideal) m ρ c main_v32
      = val_main_v27 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) := by
  show StableHlo.after hostOps1 (W2 m ρ c) (Proc.devRef .tc main_v32) = _
  after_results_simp
  rw [Cert.KernelIdeal.Layer0.hidden_eq m ρ c h0]
  rfl

set_option maxHeartbeats 4000000 in
/-- The neighbour sums the second region finds are the reference's. -/
theorem sums_eq (h0 : ∀ i, 0 ≤ ((m ((c.tc : Thread nD τ).loc main_arg2)) i).toInt) (h1 : ∀ i, 0 ≤ ((m ((c.tc : Thread nD τ).loc main_arg4)) i).toInt) :
    V3 (F := Ideal) m ρ c main_v48
      = val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps1 (W2 m ρ c) (Proc.devRef .tc main_v48) = _
  after_results_simp
  rw [arg3_kept, arg4_kept, Cert.KernelIdeal.Layer0.hidden_eq m ρ c h0,
    Cert.PreDecode.wrap_eq _ bcast_S_S40960 4096#32 h1]
  rfl

set_option maxHeartbeats 4000000 in
/-- The reciprocal-count column the second region finds. -/
theorem recip_eq (h1 : ∀ i, 0 ≤ ((m ((c.tc : Thread nD τ).loc main_arg4)) i).toInt) :
    V3 (F := Ideal) m ρ c main_v62 = Cert.ReferenceIdeal.Means.recip1 (m ((c.tc : Thread nD τ).loc main_arg4)) := by
  show StableHlo.after hostOps1 (W2 m ρ c) (Proc.devRef .tc main_v62) = _
  after_results_simp
  rw [arg4_kept, Cert.PreDecode.wrap_eq _ bcast_S_S40960 4096#32 h1]
  rfl

/-- The bias row the second region finds is b1 reshaped to one row. -/
theorem bias_eq : V3 (F := Ideal) m ρ c main_v63 = shapeCast S1x47 (m ((c.tc : Thread nD τ).loc main_arg10)) shapeCasts_S47_S1x47 := by
  show StableHlo.after hostOps1 (W2 m ρ c) (Proc.devRef .tc main_v63) = _
  after_results_simp
  rw [arg10_kept]
  rfl

theorem wself_eq : V3 (F := Ideal) m ρ c main_arg8 = (m ((c.tc : Thread nD τ).loc main_arg8)) := by
  show StableHlo.after hostOps1 (W2 m ρ c) (Proc.devRef .tc main_arg8) = _
  after_results_simp
  exact arg8_kept m ρ c

theorem wneigh_eq : V3 (F := Ideal) m ρ c main_arg9 = (m ((c.tc : Thread nD τ).loc main_arg9)) := by
  show StableHlo.after hostOps1 (W2 m ρ c) (Proc.devRef .tc main_arg9) = _
  after_results_simp
  exact arg9_kept m ρ c

/-- After the second region the result array is the reference's result. -/
theorem result_eq (h0 : ∀ i, 0 ≤ ((m ((c.tc : Thread nD τ).loc main_arg2)) i).toInt) (h1 : ∀ i, 0 ≤ ((m ((c.tc : Thread nD τ).loc main_arg4)) i).toInt) :
    W4 (F := Ideal) m ρ c (Proc.devRef .tc main_v64)
      = val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine ((W4_arr m ρ c 6).trans (Cert.KernelIdeal.Region1.final (V3 m ρ) c)).trans ?_
  rw [features_eq m ρ c h0, sums_eq m ρ c h0 h1, recip_eq m ρ c h1, bias_eq, wself_eq, wneigh_eq,
    Cert.ReferenceIdeal.Layers.layer1, Cert.ReferenceIdeal.Means.mean1]
  exact congrArg _ (Cert.KernelIdeal.Layer0.rowOf_reshape _ shapeCasts_S47_S1x47 (by decide))

end Cert.KernelIdeal.Layer1

end
-- ==== Proof.lean ====
/-
  A two-layer mean-aggregating graph network: the kernel's program against its reference.

  Each layer takes node features, gathers the source row of every edge, adds it into the edge's destination row,
  divides each destination's sum by max(number of its edges, 1), and returns
  (features·W_self + mean·W_neigh) + bias, the first layer followed by max(·, 0).  The kernel's program does the
  gather, the accumulation and the count by the same host operations as the reference, forms the reciprocal
  1 / max(count, 1) on the host, and computes "sum × reciprocal", the two products, the bias and the rectifier in
  one region per layer, 2048 rows to a grid point; it stores the first layer's output in a narrower float format.

  On the extended reals a change of float format is the identity, a product into a zero accumulator is the plain
  sum over the contracted coordinate, and a sum times 1 / max(count, 1) is the sum divided by max(count, 1),
  because that divisor is at least one and so not zero.  One difference is not an identity: before its
  accumulations the kernel's program wraps a destination index, "if i < 0 then i + N else i", while the reference
  drops an edge whose destination index is negative.  The precondition therefore asks, beside finite float
  inputs, that both destination-index vectors be non-negative; then the wrap is the identity and the two
  programs compute one function of the arguments, entry by entry.

  The three frame claims are the generated frames (the reference's is its generated run with the result dropped);
  the idealization rewrote nothing, so "preserves" is trivial.
-/
import proofs.«121893_j5789615915673_2_alg».proof.Defs
import proofs.«121893_j5789615915673_2_alg».proof.Proof.Gen.Kernel
import proofs.«121893_j5789615915673_2_alg».proof.Proof.Gen.Kernel.Skeleton
import proofs.«121893_j5789615915673_2_alg».proof.Proof.Gen.Kernel.Launch
import proofs.«121893_j5789615915673_2_alg».proof.Proof.Gen.Kernel.Points
import proofs.«121893_j5789615915673_2_alg».proof.Proof.Gen.Kernel.Frame
import proofs.«121893_j5789615915673_2_alg».proof.Proof.Gen.KernelIdeal
import proofs.«121893_j5789615915673_2_alg».proof.Proof.Gen.KernelIdeal.Skeleton
import proofs.«121893_j5789615915673_2_alg».proof.Proof.Gen.KernelIdeal.Launch
import proofs.«121893_j5789615915673_2_alg».proof.Proof.Gen.KernelIdeal.Points
import proofs.«121893_j5789615915673_2_alg».proof.Proof.Gen.KernelIdeal.Frame
import proofs.«121893_j5789615915673_2_alg».proof.Proof.Gen.ReferenceIdeal
import proofs.«121893_j5789615915673_2_alg».proof.Proof.Gen.Pre_finite_inputs
import proofs.«121893_j5789615915673_2_alg».proof.Proof.Gen.ReferenceIdeal.Run
import proofs.«121893_j5789615915673_2_alg».proof.Proof.Gen.ReferenceIdeal.Read
import proofs.«121893_j5789615915673_2_alg».proof.Proof.PreDecode
import proofs.«121893_j5789615915673_2_alg».proof.Proof.KernelRun
import proofs.«121893_j5789615915673_2_alg».proof.Proof.KLayer1
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the same result: the kernel's run ends at the value its two regions leave, which under
    the precondition is the reference's result stage of the same arguments; the reference's run ends at that stage
    of its own arguments, which agree with the kernel's. -/
theorem algebraic : Cert.algebraic_KernelIdeal_ReferenceIdeal := by
  intro m ρ m' ρ' hpre hagree
  refine ⟨fun c => Cert.KernelIdeal.Gen.W4 m ρ c (Proc.devRef .tc Cert.KernelIdeal.main_v64),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := Cert.PreDecode.dst_nonneg _ _ _ _ _ _ _ _ _ _ _ (hpre c)
  rw [Cert.ReferenceIdeal.Read.val_main_v52_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  exact (Cert.KernelIdeal.Layer1.result_eq m ρ c h0 h1).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
